-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x512 : Shape := ⟨3, ![8, 8192, 512]⟩
abbrev S2048x512 : Shape := ⟨2, ![2048, 512]⟩
abbrev S512x2048 : Shape := ⟨2, ![512, 2048]⟩
abbrev S2048 : Shape := ⟨1, ![2048]⟩
abbrev S_ : Shape := ⟨0, ![]⟩

class Facts : Prop where
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S8x8192x512 .f32) (main_arg1 : FVec F S2048x512 .f32) (main_arg2 : FVec F S512x2048 .f32) (main_arg3 : FVec F S2048 .f32) : IVec S_ 1 :=
  let main_v0 : FVec F S8x8192x512 .f32 := Host.absf main_arg0
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_c : IVec S_ 1 := constantI S_ 1 1#1
  let main_v3 : IVec S_ 1 := (fun x v => Host.reduce IntOp.andi x v reducesTo_S8x8192x512_S_d0_1_2 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S8x8192x512 : Shape := ⟨3, ![8, 8192, 512]⟩
abbrev S2048x512 : Shape := ⟨2, ![2048, 512]⟩
abbrev S512x2048 : Shape := ⟨2, ![512, 2048]⟩
abbrev S2048 : Shape := ⟨1, ![2048]⟩
abbrev S65536x512 : Shape := ⟨2, ![65536, 512]⟩
abbrev S_ : Shape := ⟨0, ![]⟩
abbrev S1x2048 : Shape := ⟨2, ![1, 2048]⟩
abbrev S512x512 : Shape := ⟨2, ![512, 512]⟩
abbrev S512 : Shape := ⟨1, ![512]⟩
abbrev S512x1 : Shape := ⟨2, ![512, 1]⟩

abbrev nBuf : Space → Nat
  | .hbm => 58
  | .vmem => 7
  | .smem => 0
  | _ => 0

abbrev bufTy : (tb : Table) → Fin (tcTables nBuf tb) → BufTy
  | .hbm, ⟨0, _⟩ => ⟨S8x8192x512, .f32⟩
  | .hbm, ⟨1, _⟩ => ⟨S2048x512, .f32⟩
  | .hbm, ⟨2, _⟩ => ⟨S512x2048, .f32⟩
  | .hbm, ⟨3, _⟩ => ⟨S2048, .f32⟩
  | .hbm, ⟨4, _⟩ => ⟨S65536x512, .f32⟩
  | .hbm, ⟨5, _⟩ => ⟨S2048x512, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S2048x512, .f32⟩
  | .hbm, ⟨22, _⟩ => ⟨S2048x512, .f32⟩
  | .hbm, ⟨23, _⟩ => ⟨S_, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S512x2048, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S512x2048, .f32⟩
  | .hbm, ⟨39, _⟩ => ⟨S512x2048, .f32⟩
  | .hbm, ⟨40, _⟩ => ⟨S512x2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S512x2048, .f32⟩
  | .hbm, ⟨45, _⟩ => ⟨S512x2048, .f32⟩
  | .hbm, ⟨46, _⟩ => ⟨S_, .f32⟩
  | .hbm, ⟨47, _⟩ => ⟨S512x2048, .f32⟩
  | .hbm, ⟨48, _⟩ => ⟨S512x2048, .f32⟩
  | .hbm, ⟨49, _⟩ => ⟨S512x2048, .f32⟩
  | .hbm, ⟨50, _⟩ => ⟨S512x2048, .f32⟩
  | .hbm, ⟨51, _⟩ => ⟨S512x2048, .f32⟩
  | .hbm, ⟨52, _⟩ => ⟨S512x2048, .bf16⟩
  | .hbm, ⟨53, _⟩ => ⟨S2048x512, .f32⟩
  | .hbm, ⟨54, _⟩ => ⟨S2048x512, .bf16⟩
  | .hbm, ⟨55, _⟩ => ⟨S1x2048, .f32⟩
  | .hbm, ⟨56, _⟩ => ⟨S65536x512, .f32⟩
  | .hbm, ⟨57, _⟩ => ⟨S8x8192x512, .f32⟩
  | .local _ .vmem, ⟨0, _⟩ => ⟨S512x512, .f32⟩
  | .local _ .vmem, ⟨1, _⟩ => ⟨S512x512, .f32⟩
  | .local _ .vmem, ⟨2, _⟩ => ⟨S512x2048, .bf16⟩
  | .local _ .vmem, ⟨3, _⟩ => ⟨S2048x512, .bf16⟩
  | .local _ .vmem, ⟨4, _⟩ => ⟨S1x2048, .f32⟩
  | .local _ .vmem, ⟨5, _⟩ => ⟨S512x512, .f32⟩
  | .local _ .vmem, ⟨6, _⟩ => ⟨S512x512, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_call0_v0 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_cst_4 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_cst_6 : Ref sig .tc := ⟨.hbm, 31, rfl⟩
abbrev main_v14 : Ref sig .tc := ⟨.hbm, 32, rfl⟩
abbrev main_cst_7 : Ref sig .tc := ⟨.hbm, 33, rfl⟩
abbrev main_call3_v0 : Ref sig .tc := ⟨.hbm, 34, rfl⟩
abbrev main_v15 : Ref sig .tc := ⟨.hbm, 35, rfl⟩
abbrev main_cst_8 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_9 : Ref sig .tc := ⟨.hbm, 41, rfl⟩
abbrev main_cst_10 : Ref sig .tc := ⟨.hbm, 42, rfl⟩
abbrev main_call5_v0 : Ref sig .tc := ⟨.hbm, 43, rfl⟩
abbrev main_call5_v1 : Ref sig .tc := ⟨.hbm, 44, rfl⟩
abbrev main_call5_v2 : Ref sig .tc := ⟨.hbm, 45, rfl⟩
abbrev main_call5_v3 : Ref sig .tc := ⟨.hbm, 46, rfl⟩
abbrev main_call5_v4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x8192x512_S65536x512 : S8x8192x512.ShapeCasts S65536x512
  reducesTo_S2048x512_S_d0_1 : S2048x512.ReducesTo [0, 1] S_
  h_S_ : 0 < S_.numel
  bcast_S_S2048x512 : S_.BroadcastsInDim S2048x512 (![] : Fin 0 → Fin S2048x512.rank)
  reducesTo_S512x2048_S_d0_1 : S512x2048.ReducesTo [0, 1] S_
  bcast_S_S512x2048 : S_.BroadcastsInDim S512x2048 (![] : Fin 0 → Fin S512x2048.rank)
  transposes_S2048x512_S512x2048_1_0 : S2048x512.Transposes [1, 0] S512x2048
  bitsLt_bf16_f32 : FTy.bits .bf16 < FTy.bits .f32
  transposes_S512x2048_S2048x512_1_0 : S512x2048.Transposes [1, 0] S2048x512
  shapeCasts_S2048_S1x2048 : S2048.ShapeCasts S1x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x512_S512 : S512x512.Reduces [1] S512
  shapeCasts_S512_S512x1 : S512.ShapeCasts S512x1
  broadcasts_S512x1_S512x512 : S512x1.Broadcasts S512x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  broadcasts_S512x1_S512x2048 : S512x1.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S65536x512_S8x8192x512 : S65536x512.ShapeCasts S8x8192x512
  dot_S512x512_S512x2048_S512x2048_1_0_0_1_n_n_wf : DotDims.WF S512x512 S512x2048 S512x2048 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S65536x512.size a
  hwx0_0 : ∀ i : grid0.Coords, EltTy.bits .f32 = 32 ∨ (Rect.block (s := S65536x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .bf16 = 32 ∨ (Rect.block (s := S2048x512) S2048x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S65536x512.size a
  hwx0_4 : ∀ i : grid0.Coords, EltTy.bits .f32 = 32 ∨ (Rect.block (s := S65536x512) S512x512.size (cc0_transform_4 i) (hinb0_4 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x8192x512 : Shape := ⟨3, ![8, 8192, 512]⟩
abbrev S2048x512 : Shape := ⟨2, ![2048, 512]⟩
abbrev S512x2048 : Shape := ⟨2, ![512, 2048]⟩
abbrev S2048 : Shape := ⟨1, ![2048]⟩
abbrev S_ : Shape := ⟨0, ![]⟩
abbrev S8x8192 : Shape := ⟨2, ![8, 8192]⟩
abbrev S8x8192x1 : Shape := ⟨3, ![8, 8192, 1]⟩
abbrev S8x8192x2048 : Shape := ⟨3, ![8, 8192, 2048]⟩
abbrev S1x1x2048 : Shape := ⟨3, ![1, 1, 2048]⟩

abbrev nBuf : Space → Nat
  | .hbm => 128
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S2048x512, .f32⟩
  | .hbm, ⟨2, _⟩ => ⟨S512x2048, .f32⟩
  | .hbm, ⟨3, _⟩ => ⟨S2048, .f32⟩
  | .hbm, ⟨4, _⟩ => ⟨S8x8192x512, .f32⟩
  | .hbm, ⟨5, _⟩ => ⟨S_, .f32⟩
  | .hbm, ⟨6, _⟩ => ⟨S8x8192, .f32⟩
  | .hbm, ⟨7, _⟩ => ⟨S8x8192x1, .f32⟩
  | .hbm, ⟨8, _⟩ => ⟨S_, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x512, .f32⟩
  | .hbm, ⟨16, _⟩ => ⟨S8x8192x512, .f32⟩
  | .hbm, ⟨17, _⟩ => ⟨S8x8192x512, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8x8192x512, .f32⟩
  | .hbm, ⟨22, _⟩ => ⟨S8x8192x512, .f32⟩
  | .hbm, ⟨23, _⟩ => ⟨S_, .f32⟩
  | .hbm, ⟨24, _⟩ => ⟨S8x8192x512, .f32⟩
  | .hbm, ⟨25, _⟩ => ⟨S8x8192x512, .f32⟩
  | .hbm, ⟨26, _⟩ => ⟨S8x8192x512, .f32⟩
  | .hbm, ⟨27, _⟩ => ⟨S8x8192x512, .f32⟩
  | .hbm, ⟨28, _⟩ => ⟨S8x8192x512, .f32⟩
  | .hbm, ⟨29, _⟩ => ⟨S8x8192x512, .f32⟩
  | .hbm, ⟨30, _⟩ => ⟨S2048x512, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048x512, .f32⟩
  | .hbm, ⟨41, _⟩ => ⟨S2048x512, .f32⟩
  | .hbm, ⟨42, _⟩ => ⟨S2048x512, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S2048x512, .f32⟩
  | .hbm, ⟨47, _⟩ => ⟨S2048x512, .f32⟩
  | .hbm, ⟨48, _⟩ => ⟨S_, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S2048x512, .f32⟩
  | .hbm, ⟨53, _⟩ => ⟨S2048x512, .f32⟩
  | .hbm, ⟨54, _⟩ => ⟨S2048x512, .f32⟩
  | .hbm, ⟨55, _⟩ => ⟨S8x8192x2048, .f32⟩
  | .hbm, ⟨56, _⟩ => ⟨S_, .f32⟩
  | .hbm, ⟨57, _⟩ => ⟨S8x8192x2048, .f32⟩
  | .hbm, ⟨58, _⟩ => ⟨S8x8192x2048, .f32⟩
  | .hbm, ⟨59, _⟩ => ⟨S8x8192x2048, .f32⟩
  | .hbm, ⟨60, _⟩ => ⟨S8x8192x2048, .f32⟩
  | .hbm, ⟨61, _⟩ => ⟨S_, .f32⟩
  | .hbm, ⟨62, _⟩ => ⟨S8x8192, .f32⟩
  | .hbm, ⟨63, _⟩ => ⟨S8x8192x1, .f32⟩
  | .hbm, ⟨64, _⟩ => ⟨S_, .f32⟩
  | .hbm, ⟨65, _⟩ => ⟨S8x8192x1, .f32⟩
  | .hbm, ⟨66, _⟩ => ⟨S8x8192x1, .f32⟩
  | .hbm, ⟨67, _⟩ => ⟨S_, .f32⟩
  | .hbm, ⟨68, _⟩ => ⟨S8x8192x1, .f32⟩
  | .hbm, ⟨69, _⟩ => ⟨S8x8192x1, .f32⟩
  | .hbm, ⟨70, _⟩ => ⟨S8x8192x1, .f32⟩
  | .hbm, ⟨71, _⟩ => ⟨S8x8192x2048, .f32⟩
  | .hbm, ⟨72, _⟩ => ⟨S8x8192x2048, .f32⟩
  | .hbm, ⟨73, _⟩ => ⟨S1x1x2048, .f32⟩
  | .hbm, ⟨74, _⟩ => ⟨S8x8192x2048, .f32⟩
  | .hbm, ⟨75, _⟩ => ⟨S8x8192x2048, .f32⟩
  | .hbm, ⟨76, _⟩ => ⟨S8x8192x2048, .f32⟩
  | .hbm, ⟨77, _⟩ => ⟨S_, .f32⟩
  | .hbm, ⟨78, _⟩ => ⟨S8x8192, .f32⟩
  | .hbm, ⟨79, _⟩ => ⟨S8x8192x1, .f32⟩
  | .hbm, ⟨80, _⟩ => ⟨S_, .f32⟩
  | .hbm, ⟨81, _⟩ => ⟨S_, .f32⟩
  | .hbm, ⟨82, _⟩ => ⟨S8x8192x1, .f32⟩
  | .hbm, ⟨83, _⟩ => ⟨S8x8192x1, .f32⟩
  | .hbm, ⟨84, _⟩ => ⟨S_, .f32⟩
  | .hbm, ⟨85, _⟩ => ⟨S8x8192x1, .f32⟩
  | .hbm, ⟨86, _⟩ => ⟨S8x8192x1, .f32⟩
  | .hbm, ⟨87, _⟩ => ⟨S8x8192x2048, .f32⟩
  | .hbm, ⟨88, _⟩ => ⟨S8x8192x2048, .f32⟩
  | .hbm, ⟨89, _⟩ => ⟨S8x8192x2048, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S8x8192x2048, .f32⟩
  | .hbm, ⟨94, _⟩ => ⟨S8x8192x2048, .f32⟩
  | .hbm, ⟨95, _⟩ => ⟨S_, .f32⟩
  | .hbm, ⟨96, _⟩ => ⟨S8x8192x2048, .f32⟩
  | .hbm, ⟨97, _⟩ => ⟨S8x8192x2048, .f32⟩
  | .hbm, ⟨98, _⟩ => ⟨S8x8192x2048, .f32⟩
  | .hbm, ⟨99, _⟩ => ⟨S8x8192x2048, .f32⟩
  | .hbm, ⟨100, _⟩ => ⟨S8x8192x2048, .f32⟩
  | .hbm, ⟨101, _⟩ => ⟨S8x8192x2048, .f32⟩
  | .hbm, ⟨102, _⟩ => ⟨S512x2048, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S512x2048, .f32⟩
  | .hbm, ⟨113, _⟩ => ⟨S512x2048, .f32⟩
  | .hbm, ⟨114, _⟩ => ⟨S512x2048, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S512x2048, .f32⟩
  | .hbm, ⟨119, _⟩ => ⟨S512x2048, .f32⟩
  | .hbm, ⟨120, _⟩ => ⟨S_, .f32⟩
  | .hbm, ⟨121, _⟩ => ⟨S512x2048, .f32⟩
  | .hbm, ⟨122, _⟩ => ⟨S512x2048, .f32⟩
  | .hbm, ⟨123, _⟩ => ⟨S512x2048, .f32⟩
  | .hbm, ⟨124, _⟩ => ⟨S512x2048, .f32⟩
  | .hbm, ⟨125, _⟩ => ⟨S512x2048, .f32⟩
  | .hbm, ⟨126, _⟩ => ⟨S512x2048, .f32⟩
  | .hbm, ⟨127, _⟩ => ⟨S8x8192x512, .f32⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_cst_3 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_cst_5 : Ref sig .tc := ⟨.hbm, 33, rfl⟩
abbrev main_v16 : Ref sig .tc := ⟨.hbm, 34, rfl⟩
abbrev main_cst_6 : Ref sig .tc := ⟨.hbm, 35, rfl⟩
abbrev main_call3_v0 : Ref sig .tc := ⟨.hbm, 36, rfl⟩
abbrev main_v17 : Ref sig .tc := ⟨.hbm, 37, rfl⟩
abbrev main_cst_7 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_8 : Ref sig .tc := ⟨.hbm, 43, rfl⟩
abbrev main_cst_9 : Ref sig .tc := ⟨.hbm, 44, rfl⟩
abbrev main_call5_v0 : Ref sig .tc := ⟨.hbm, 45, rfl⟩
abbrev main_call5_v1 : Ref sig .tc := ⟨.hbm, 46, rfl⟩
abbrev main_call5_v2 : Ref sig .tc := ⟨.hbm, 47, rfl⟩
abbrev main_call5_v3 : Ref sig .tc := ⟨.hbm, 48, rfl⟩
abbrev main_call5_v4 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_call6_cst : Ref sig .tc := ⟨.hbm, 56, rfl⟩
abbrev main_call6_v0 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_10 : Ref sig .tc := ⟨.hbm, 61, rfl⟩
abbrev main_v31 : Ref sig .tc := ⟨.hbm, 62, rfl⟩
abbrev main_v32 : Ref sig .tc := ⟨.hbm, 63, rfl⟩
abbrev main_cst_11 : Ref sig .tc := ⟨.hbm, 64, rfl⟩
abbrev main_v33 : Ref sig .tc := ⟨.hbm, 65, rfl⟩
abbrev main_v34 : Ref sig .tc := ⟨.hbm, 66, rfl⟩
abbrev main_cst_12 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_13 : Ref sig .tc := ⟨.hbm, 77, rfl⟩
abbrev main_v44 : Ref sig .tc := ⟨.hbm, 78, rfl⟩
abbrev main_v45 : Ref sig .tc := ⟨.hbm, 79, rfl⟩
abbrev main_cst_14 : Ref sig .tc := ⟨.hbm, 80, rfl⟩
abbrev main_call7_v0 : Ref sig .tc := ⟨.hbm, 81, rfl⟩
abbrev main_call7_v1 : Ref sig .tc := ⟨.hbm, 82, rfl⟩
abbrev main_v46 : Ref sig .tc := ⟨.hbm, 83, rfl⟩
abbrev main_cst_15 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_16 : Ref sig .tc := ⟨.hbm, 90, rfl⟩
abbrev main_cst_17 : Ref sig .tc := ⟨.hbm, 91, rfl⟩
abbrev main_call9_v0 : Ref sig .tc := ⟨.hbm, 92, rfl⟩
abbrev main_call9_v1 : Ref sig .tc := ⟨.hbm, 93, rfl⟩
abbrev main_call9_v2 : Ref sig .tc := ⟨.hbm, 94, rfl⟩
abbrev main_call9_v3 : Ref sig .tc := ⟨.hbm, 95, rfl⟩
abbrev main_call9_v4 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_cst_18 : Ref sig .tc := ⟨.hbm, 103, rfl⟩
abbrev main_v58 : Ref sig .tc := ⟨.hbm, 104, rfl⟩
abbrev main_cst_19 : Ref sig .tc := ⟨.hbm, 105, rfl⟩
abbrev main_v59 : Ref sig .tc := ⟨.hbm, 106, rfl⟩
abbrev main_cst_20 : Ref sig .tc := ⟨.hbm, 107, rfl⟩
abbrev main_call10_v0 : Ref sig .tc := ⟨.hbm, 108, rfl⟩
abbrev main_v60 : Ref sig .tc := ⟨.hbm, 109, rfl⟩
abbrev main_cst_21 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_cst_22 : Ref sig .tc := ⟨.hbm, 115, rfl⟩
abbrev main_cst_23 : Ref sig .tc := ⟨.hbm, 116, rfl⟩
abbrev main_call12_v0 : Ref sig .tc := ⟨.hbm, 117, rfl⟩
abbrev main_call12_v1 : Ref sig .tc := ⟨.hbm, 118, rfl⟩
abbrev main_call12_v2 : Ref sig .tc := ⟨.hbm, 119, rfl⟩
abbrev main_call12_v3 : Ref sig .tc := ⟨.hbm, 120, rfl⟩
abbrev main_call12_v4 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩

abbrev nD : Nat := 1
abbrev τ : Topo := Topo.v7x

variable {F : FTy → Type} [FloatOps F]

class Facts₀ : Prop where
  reducesTo_S8x8192x512_S8x8192_d2 : S8x8192x512.ReducesTo [2] S8x8192
  h_S_ : 0 < S_.numel
  bcast_S8x8192_S8x8192x1_0_1 : S8x8192.BroadcastsInDim S8x8192x1 (![0, 1] : Fin 2 → Fin S8x8192x1.rank)
  bcast_S_S8x8192x1 : S_.BroadcastsInDim S8x8192x1 (![] : Fin 0 → Fin S8x8192x1.rank)
  bcast_S8x8192x1_S8x8192x512_0_1_2 : S8x8192x1.BroadcastsInDim S8x8192x512 (![0, 1, 2] : Fin 3 → Fin S8x8192x512.rank)
  bcast_S_S8x8192x512 : S_.BroadcastsInDim S8x8192x512 (![] : Fin 0 → Fin S8x8192x512.rank)
  reducesTo_S2048x512_S_d0_1 : S2048x512.ReducesTo [0, 1] S_
  bcast_S_S2048x512 : S_.BroadcastsInDim S2048x512 (![] : Fin 0 → Fin S2048x512.rank)
  bcast_S_S8x8192x2048 : S_.BroadcastsInDim S8x8192x2048 (![] : Fin 0 → Fin S8x8192x2048.rank)
  reducesTo_S8x8192x2048_S8x8192_d2 : S8x8192x2048.ReducesTo [2] S8x8192
  bcast_S8x8192x1_S8x8192x2048_0_1_2 : S8x8192x1.BroadcastsInDim S8x8192x2048 (![0, 1, 2] : Fin 3 → Fin S8x8192x2048.rank)
  bcast_S2048_S1x1x2048_2 : S2048.BroadcastsInDim S1x1x2048 (![2] : Fin 1 → Fin S1x1x2048.rank)
  bcast_S1x1x2048_S8x8192x2048_0_1_2 : S1x1x2048.BroadcastsInDim S8x8192x2048 (![0, 1, 2] : Fin 3 → Fin S8x8192x2048.rank)
  reducesTo_S512x2048_S_d0_1 : S512x2048.ReducesTo [0, 1] S_
  bcast_S_S512x2048 : S_.BroadcastsInDim S512x2048 (![] : Fin 0 → Fin S512x2048.rank)
  dot_S8x8192x512_S2048x512_S8x8192x2048_2_1_01_0_n_n_wf : DotDims.WF S8x8192x512 S2048x512 S8x8192x2048 [2] [1] [0, 1] [0] [] []
  dot_S8x8192x2048_S512x2048_S8x8192x512_2_1_01_0_n_n_wf : DotDims.WF S8x8192x2048 S512x2048 S8x8192x512 [2] [1] [0, 1] [0] [] []

variable [Facts₀]

def dot_S8x8192x512_S2048x512_S8x8192x2048_2_1_01_0_n_n : DotDims S8x8192x512 S2048x512 S8x8192x2048 where
  lhsContracting := [2]
  rhsContracting := [1]
  lhsNonContracting := [0, 1]
  rhsNonContracting := [0]
  lhsBatch := []
  rhsBatch := []
  wf := dot_S8x8192x512_S2048x512_S8x8192x2048_2_1_01_0_n_n_wf
def dot_S8x8192x2048_S512x2048_S8x8192x512_2_1_01_0_n_n : DotDims S8x8192x2048 S512x2048 S8x8192x512 where
  lhsContracting := [2]
  rhsContracting := [1]
  lhsNonContracting := [0, 1]
  rhsNonContracting := [0]
  lhsBatch := []
  rhsBatch := []
  wf := dot_S8x8192x2048_S512x2048_S8x8192x512_2_1_01_0_n_n_wf

class Facts : Prop extends Facts₀ where

variable [Facts]
-- ==== Proof.Spec.lean ====
/-
  The function both programs compute, one token (row) at a time, on the extended reals.

  A row `x` of 512 activations is quantized to the 8-bit grid of its own largest magnitude
  (`quant`: scale `s = 127 / max(tiny, maxᵢ |xᵢ|)`, entry `clip(round(xᵢ · s), -128, 127) / s`),
  multiplied into the up-projection weights (`up`), passed through `relu` and a square (`relu2`),
  normalised by the root of its mean square with a gain (`subln`), quantized again and multiplied
  into the down-projection weights (`down`): `mlpRow`.  The weights a row meets are themselves
  quantized, once for the whole matrix, to {-1, 0, 1} times the mean magnitude (`wQuant`).

  The reference writes every quantizer in its straight-through form `v + (q - v)` (`ste`): `refRow`
  is `mlpRow` with the two row quantizers so written.  On real numbers `v + (q - v) = q`; at an
  infinite `v` it is not, which is where finiteness of the inputs is used (Algebra.lean).

  Float literals stay the patterns the programs print; only Algebra.lean reads them as numbers.
-/
import Idealize.ShloMosaic.PureOps.Ideal

noncomputable section

namespace Cert.Mlp

open Idealize.ShloMosaic

/-! ## The literals, as printed -/

/-- the floor under a scale's denominator, f32(1e-5) -/
def tiny : EReal := Ideal.ofBits .f32 0x3727C5AC#32
/-- 127 -/
def q127 : EReal := Ideal.ofBits .f32 0x42FE0000#32
/-- -128 -/
def qm128 : EReal := Ideal.ofBits .f32 0xC3000000#32
/-- -∞, where a maximum starts -/
def negInf : EReal := Ideal.ofBits .f32 0xFF800000#32
/-- 0 -/
def zero32 : EReal := Ideal.ofBits .f32 0x00000000#32
/-- 2048, the hidden width -/
def width : EReal := Ideal.ofBits .f32 0x45000000#32
/-- f32(1e-6), under the root -/
def eps : EReal := Ideal.ofBits .f32 0x358637BD#32
/-- 1048576 = 2048 · 512, the number of entries of a weight matrix -/
def count : EReal := Ideal.ofBits .f32 0x49800000#32
/-- 1 -/
def one32 : EReal := Ideal.ofBits .f32 0x3F800000#32
/-- -1 -/
def mone32 : EReal := Ideal.ofBits .f32 0xBF800000#32

/-! ## The pieces -/

/-- round to nearest, ties to even; the infinities fixed -/
def rne (x : EReal) : EReal := Ideal.liftRound Ideal.roundHalfEven x

/-- magnitude -/
def mag (x : EReal) : EReal := max x (-x)

/-- the largest magnitude of a row, from -∞ -/
def rowMax {n : ℕ} (v : Fin n → EReal) : EReal :=
  (Finset.univ : Finset (Fin n)).fold max negInf (fun i => mag (v i))

/-- a row's scale: 127 over its largest magnitude, floored -/
def scale {n : ℕ} (v : Fin n → EReal) : EReal := Ideal.div q127 (max tiny (rowMax v))

/-- a row on the 8-bit grid of its own scale -/
def quant {n : ℕ} (v : Fin n → EReal) (i : Fin n) : EReal :=
  Ideal.div (min q127 (max qm128 (rne (v i * scale v)))) (scale v)

/-- a weight matrix's scale: one over its mean magnitude, floored -/
def wScale {ι : Type} [Fintype ι] (w : ι → EReal) : EReal :=
  Ideal.div one32 (max tiny (Ideal.div (zero32 + ∑ i, mag (w i)) count))

/-- a weight matrix on the grid {-1, 0, 1} of its own scale -/
def wQuant {ι : Type} [Fintype ι] (w : ι → EReal) (i : ι) : EReal :=
  Ideal.div (min one32 (max mone32 (rne (w i * wScale w)))) (wScale w)

/-- the straight-through form of a quantizer: `v + (q - v)` -/
def ste (v q : EReal) : EReal := v + (q - v)

/-- `quant` in straight-through form -/
def steQuant {n : ℕ} (v : Fin n → EReal) (i : Fin n) : EReal := ste (v i) (quant v i)

/-- the up projection of a row: entry `j` is the row against row `j` of the weights -/
def up (xq : Fin 512 → EReal) (WU : Fin 2048 → Fin 512 → EReal) (j : Fin 2048) : EReal :=
  ∑ i, xq i * WU j i

/-- `relu`, then a square -/
def relu2 (a : EReal) : EReal := max a zero32 * max a zero32

/-- one over the root of the mean square, `eps` under the root -/
def rms (h : Fin 2048 → EReal) : EReal := Ideal.rsqrt (Ideal.div (∑ j, h j * h j) width + eps)

/-- the normalised row with its gain -/
def subln (h g : Fin 2048 → EReal) (j : Fin 2048) : EReal := h j * rms h * g j

/-- the hidden row: up projection, activation, normalisation -/
def hidden (xq : Fin 512 → EReal) (WU : Fin 2048 → Fin 512 → EReal) (g : Fin 2048 → EReal) : Fin 2048 → EReal :=
  subln (fun j => relu2 (up xq WU j)) g

/-- the down projection of a hidden row -/
def down (hq : Fin 2048 → EReal) (WD : Fin 512 → Fin 2048 → EReal) (k : Fin 512) : EReal :=
  ∑ j, hq j * WD k j

/-- one token through the block, over weights already quantized -/
def mlpRow (x : Fin 512 → EReal) (WU : Fin 2048 → Fin 512 → EReal) (WD : Fin 512 → Fin 2048 → EReal)
    (g : Fin 2048 → EReal) (k : Fin 512) : EReal :=
  down (quant (hidden (quant x) WU g)) WD k

/-- the same with both row quantizers in straight-through form -/
def refRow (x : Fin 512 → EReal) (WU : Fin 2048 → Fin 512 → EReal) (WD : Fin 512 → Fin 2048 → EReal)
    (g : Fin 2048 → EReal) (k : Fin 512) : EReal :=
  down (steQuant (hidden (steQuant x) WU g)) WD k

/-- an extended real that is a real number -/
def IsReal (x : EReal) : Prop := ∃ r : ℝ, x = (r : EReal)

end Cert.Mlp

end
-- ==== Proof.KernelHost.lean ====
/-
  What the kernel's region finds in its four input arrays, read at an index.

  Before the region the host computes, from the arguments: the activations recast from [8, 8192, 512] to
  [65536, 512] (token (b, s) is row b · 8192 + s); each weight matrix quantized to {-1, 0, 1} times its mean
  magnitude (`Cert.Mlp.wQuant`), transposed, and narrowed to bf16 (the identity on extended reals); the gain
  recast from [2048] to [1, 2048].  So the up weights at (i, j) are `wQuant w_up` at (j, i), and the down weights
  at (j, k) are `wQuant w_down` at (k, j).
-/
import proofs.«127805_j87471303951008_1_alg».proof.Proof.Gen.KernelIdeal.Frame
import proofs.«127805_j87471303951008_1_alg».proof.Proof.Spec
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx

/-! ## The printed weight quantizer, for a matrix of any shape -/

section Quantizer

variable {s : Shape} {axes : List (Fin s.rank)}

/-- the printed scale of a weight matrix, a rank-0 array: one over the floored mean magnitude -/
def scaleArr (W : FVec Ideal s .f32) (hr : s.ReducesTo axes S_) (hu : 0 < S_.numel) : FVec Ideal S_ .f32 :=
  Host.divf (F := Ideal) (constant (F := Ideal) S_ .f32 0x3F800000#32)
    (maximumf (id (constant (F := Ideal) S_ .f32 0x3727C5AC#32))
      (Host.divf (F := Ideal)
        (Host.reduceAdd (F := Ideal) (Host.absf (F := Ideal) W) (constant (F := Ideal) S_ .f32 0x00000000#32) hr hu)
        (constant (F := Ideal) S_ .f32 0x49800000#32)))

/-- the printed quantized matrix: multiply by the scale, round, clip to [-1, 1], divide by the scale -/
def quantArr (W : FVec Ideal s .f32) (hb : S_.BroadcastsInDim s (![] : Fin 0 → Fin s.rank)) (hr : s.ReducesTo axes S_)
    (hu : 0 < S_.numel) : FVec Ideal s .f32 :=
  Host.divf (F := Ideal)
    (minimumf (broadcastInDim s ![] hb (id (constant (F := Ideal) S_ .f32 0x3F800000#32)))
      (maximumf (broadcastInDim s ![] hb (id (constant (F := Ideal) S_ .f32 0xBF800000#32)))
        (Host.roundeven (F := Ideal) (mulf W (broadcastInDim s ![] hb (scaleArr W hr hu))))))
    (broadcastInDim s ![] hb (scaleArr W hr hu))

/-- a rank-0 array broadcast to any shape reads, everywhere, as its one entry -/
theorem bcast_scalar_apply (hb : S_.BroadcastsInDim s (![] : Fin 0 → Fin s.rank)) (x : FVec Ideal S_ .f32) (j : s.Idx) :
    broadcastInDim s ![] hb x j = x ix0 :=
  broadcastInDim_apply _ hb x j ix0 (fun a => a.elim0)

/-- the printed scale is the specification's: the total of the magnitudes, from 0, over the count, floored, under 1 -/
theorem scaleArr_apply (W : FVec Ideal s .f32) (hr : s.ReducesTo axes S_) (hu : 0 < S_.numel) :
    scaleArr W hr hu ix0 = Cert.Mlp.wScale W := by
  have hsum : Host.reduceAdd (F := Ideal) (Host.absf (F := Ideal) W) (constant (F := Ideal) S_ .f32 0x00000000#32) hr hu ix0
      = Ideal.ofBits .f32 0x00000000#32 + ∑ i : s.Idx, max (W i) (-(W i)) := by
    simp only [Host.reduceAdd, Ideal.hostReduceAdd_def]
    exact Ideal.hostReduceAdd_total hr (fun b => b.elim0) _ _ ix0
  show Ideal.div (Ideal.ofBits .f32 0x3F800000#32) (max (Ideal.ofBits .f32 0x3727C5AC#32)
      (Ideal.div (Host.reduceAdd (F := Ideal) (Host.absf (F := Ideal) W) (constant (F := Ideal) S_ .f32 0x00000000#32) hr hu ix0)
        (Ideal.ofBits .f32 0x49800000#32))) = _
  rw [hsum]
  rfl

/-- the printed quantized matrix is the specification's, entry by entry -/
theorem quantArr_apply (W : FVec Ideal s .f32) (hb : S_.BroadcastsInDim s (![] : Fin 0 → Fin s.rank)) (hr : s.ReducesTo axes S_)
    (hu : 0 < S_.numel) (i : s.Idx) : quantArr W hb hr hu i = Cert.Mlp.wQuant W i := by
  show Ideal.div (min (broadcastInDim s ![] hb (id (constant (F := Ideal) S_ .f32 0x3F800000#32)) i)
      (max (broadcastInDim s ![] hb (id (constant (F := Ideal) S_ .f32 0xBF800000#32)) i)
        (Ideal.liftRound Ideal.roundHalfEven (W i * broadcastInDim s ![] hb (scaleArr W hr hu) i))))
      (broadcastInDim s ![] hb (scaleArr W hr hu) i) = _
  rw [bcast_scalar_apply, bcast_scalar_apply, bcast_scalar_apply, scaleArr_apply]
  rfl

end Quantizer

/-! ## The four arrays as the region finds them -/

variable (m : (ℓ : Loc nD τ sig) → Buf (Elt Ideal) ℓ)

/-- the up weights the region finds: the quantized `w_up`, transposed -/
theorem V_up (c : Dev nD) : V m c main_v24
    = truncf .bf16 (transpose S512x2048 [1, 0]
        (quantArr (m ((c : Thread nD τ).loc main_arg1)) bcast_S_S2048x512 reducesTo_S2048x512_S_d0_1 h_S_)
        transposes_S2048x512_S512x2048_1_0) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

/-- the down weights the region finds: the quantized `w_down`, transposed -/
theorem V_down (c : Dev nD) : V m c main_v26
    = truncf .bf16 (transpose S2048x512 [1, 0]
        (quantArr (m ((c : Thread nD τ).loc main_arg2)) bcast_S_S512x2048 reducesTo_S512x2048_S_d0_1 h_S_)
        transposes_S512x2048_S2048x512_1_0) bitsLt_bf16_f32 := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

/-- the activations the region finds: the argument recast to rows -/
theorem V_rows (c : Dev nD) : V m c main_v0
    = shapeCast S65536x512 (m ((c : Thread nD τ).loc main_arg0)) shapeCasts_S8x8192x512_S65536x512 := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

/-- the gain the region finds: the argument recast to one row -/
theorem V_gain (c : Dev nD) : V m c main_v27
    = shapeCast S1x2048 (m ((c : Thread nD τ).loc main_arg3)) shapeCasts_S2048_S1x2048 := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

/-! ## The same, at an index -/

/-- up weights at (i, j): the quantized `w_up` at (j, i) -/
theorem V_up_apply (c : Dev nD) (i : Fin 512) (j : Fin 2048) :
    V m c main_v24 (ix2 i j) = Cert.Mlp.wQuant (m ((c : Thread nD τ).loc main_arg1)) (ix2 j i) := by
  rw [V_up]
  rw [truncf_apply, transpose_apply [1, 0] _ transposes_S2048x512_S512x2048_1_0 (ix2 i j) (ix2 j i)
    (fun b => match b with | ⟨0, _⟩ => rfl | ⟨1, _⟩ => rfl)]
  exact quantArr_apply _ _ _ _ _

/-- down weights at (j, k): the quantized `w_down` at (k, j) -/
theorem V_down_apply (c : Dev nD) (j : Fin 2048) (k : Fin 512) :
    V m c main_v26 (ix2 j k) = Cert.Mlp.wQuant (m ((c : Thread nD τ).loc main_arg2)) (ix2 k j) := by
  rw [V_down]
  rw [truncf_apply, transpose_apply [1, 0] _ transposes_S512x2048_S2048x512_1_0 (ix2 j k) (ix2 k j)
    (fun b => match b with | ⟨0, _⟩ => rfl | ⟨1, _⟩ => rfl)]
  exact quantArr_apply _ _ _ _ _

/-- row b · 8192 + s of the activations is token (b, s) -/
theorem V_rows_apply (c : Dev nD) (b : Fin 8) (s : Fin 8192) (i : Fin 512) (hr : b.val * 8192 + s.val < 65536) :
    V m c main_v0 (ix2 (⟨b.val * 8192 + s.val, hr⟩ : Fin 65536) i) = m ((c : Thread nD τ).loc main_arg0) (ix3 b s i) := by
  rw [V_rows]
  refine shapeCast_apply _ shapeCasts_S8x8192x512_S65536x512 _ (ix3 b s i) ?_
  rw [Shape.rowMajor_val_three, Shape.rowMajor_val_two]
  rfl

/-- the one row of the gain is the gain -/
theorem V_gain_apply (c : Dev nD) (j : Fin 2048) :
    V m c main_v27 (ix2 (0 : Fin 1) j) = m ((c : Thread nD τ).loc main_arg3) (ix1 j) := by
  rw [V_gain]
  refine shapeCast_apply _ shapeCasts_S2048_S1x2048 _ (ix1 j) ?_
  rw [Shape.rowMajor_val_one, Shape.rowMajor_val_two]
  show j.val = 0 * 2048 + j.val
  omega

end Cert.KernelIdeal.HostValue

end
-- ==== Proof.Payload.lean ====
/-
  The kernel body's arithmetic, read at an index.

  At one grid point the body holds a [512,512] block of activations, the up-projection weights [512,2048]
  (entry (i, j) multiplies activation i into hidden unit j), the down-projection weights [2048,512] and the
  gain [1,2048], and stores a [512,512] block.  Here that block is read at (p, q): it is the specification's
  row function `Cert.Mlp.mlpRow` of ROW p of the activations, at output column q.

  Every operation of the body is either pointwise (its value at an index is the scalar operation of its
  operands there, by definition) or one of four kinds that move indices: a reduction along a row, a cast
  between a vector and a one-column matrix, a broadcast of a column or of a row over a matrix, and a matrix
  product.  One lemma per such kind says what it reads at an index written by coordinates; the three stage
  theorems push (p, q) through the body with them and meet the specification's definitions unfolded.
  The float literals stay the printed patterns on both sides and are never evaluated.
-/
import proofs.«127805_j87471303951008_1_alg».proof.Proof.Gen.KernelIdeal.Skeleton
import proofs.«127805_j87471303951008_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

variable [Cert.KernelIdeal.Facts]

/-! ## Layout operations at an index given by coordinates -/

/-- A vector of `a` entries cast to one column reads, at `(i, u)`, entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over many reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over axis 1 of a matrix visits from row `p` at step `k` is `(p, k)`. -/
theorem lift_ix2_axis1 {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-! ## The two reductions along a row -/

/-- A maximum along the rows of a matrix, started at -∞: at row `p` the fold of `max` over the row. -/
theorem rowMax_apply {m n : ℕ} (v : FVec Ideal ⟨2, ![m, n]⟩ .f32)
    (h : (⟨2, ![m, n]⟩ : Shape).Reduces [1] (⟨1, ![m]⟩ : Shape)) (hφ : FKind.Formats .f32)
    (hacc : (0xFF800000#32 : BitVec 32) = 0xFF800000#32) (p : Fin m) :
    multiReduction (F := Ideal) .maximumf [1] (⟨1, ![m]⟩ : Shape) v 0xFF800000#32 h hφ hacc (ix1 p)
      = (Finset.univ : Finset (Fin n)).fold max (Ideal.ofBits .f32 0xFF800000#32) (fun i => v (ix2 p i)) := by
  refine (Ideal.multiReduction_maximumf_single v 0xFF800000#32 h hφ hacc (ix1 p)).trans ?_
  have hf : (v ∘ h.lift (ix1 p)) = fun k : Fin n => v (ix2 p k) :=
    funext fun k => congrArg v (lift_ix2_axis1 h p k)
  exact congrArg (fun f => Finset.fold max (Ideal.ofBits .f32 0xFF800000#32) f (Finset.univ : Finset (Fin n))) hf

/-- A sum along the rows of a matrix, started at zero: at row `p` the sum of the row. -/
theorem rowSum_apply {m n : ℕ} (v : FVec Ideal ⟨2, ![m, n]⟩ .f32)
    (h : (⟨2, ![m, n]⟩ : Shape).Reduces [1] (⟨1, ![m]⟩ : Shape)) (hφ : FKind.Formats .f32)
    (hacc : (0x00000000#32 : BitVec 32) = 0x00000000#32) (p : Fin m) :
    multiReduction (F := Ideal) .add [1] (⟨1, ![m]⟩ : Shape) v 0x00000000#32 h hφ hacc (ix1 p) = ∑ j : Fin n, v (ix2 p j) := by
  refine (Ideal.multiReduction_add_single v 0x00000000#32 h hφ hacc (ix1 p)).trans ?_
  show ∑ k : Fin n, v (h.lift (ix1 p) k) = ∑ j : Fin n, v (ix2 p j)
  exact Finset.sum_congr rfl fun k _ => congrArg v (lift_ix2_axis1 h p k)

/-! ## The two matrix products -/

/-- The [512,512] × [512,2048] product from a zero accumulator: at \`(p, j)\` row \`p\` of the left operand against column \`j\` of the right. -/
theorem matmul_up_apply (a : FVec Ideal S512x512 .bf16) (b : FVec Ideal S512x2048 .bf16) (p : Fin 512) (j : Fin 2048) :
    matmul (F := Ideal) dot_S512x512_S512x2048_S512x2048_1_0_0_1_n_n none a b (constant (F := Ideal) S512x2048 .f32 0x00000000#32) (ix2 p j)
      = ∑ i : Fin 512, a (ix2 p i) * b (ix2 i j) := by
  refine (Ideal.matmul_constant_zero_apply dot_S512x512_S512x2048_S512x2048_1_0_0_1_n_n none a b (ix2 p j)).trans ?_
  rw [← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx (ix2 p j) ((contrEquiv1 dot_S512x512_S512x2048_S512x2048_1_0_0_1_n_n 512 rfl rfl).symm k) = ix2 p k :=
    funext fun c => Fin.ext (by
      match c with
      | ⟨0, _⟩ => rfl
      | ⟨1, _⟩ => exact (dot_S512x512_S512x2048_S512x2048_1_0_0_1_n_n.lhsIdx_val_of_single rfl _ _).trans hk)
  have er : dot_S512x512_S512x2048_S512x2048_1_0_0_1_n_n.rhsIdx (ix2 p j) ((contrEquiv1 dot_S512x512_S512x2048_S512x2048_1_0_0_1_n_n 512 rfl rfl).symm k) = ix2 k j :=
    funext fun c => Fin.ext (by
      match c with
      | ⟨0, _⟩ => exact (dot_S512x512_S512x2048_S512x2048_1_0_0_1_n_n.rhsIdx_val_of_single rfl _ _).trans hk
      | ⟨1, _⟩ => rfl)
  rw [el, er]

/-- The [512,2048] × [2048,512] product from a zero accumulator: at \`(p, q)\` row \`p\` of the left operand against column \`q\` of the right. -/
theorem matmul_down_apply (a : FVec Ideal S512x2048 .bf16) (b : FVec Ideal S2048x512 .bf16) (p : Fin 512) (j : Fin 512) :
    matmul (F := Ideal) dot_S512x2048_S2048x512_S512x512_1_0_0_1_n_n none a b (constant (F := Ideal) S512x512 .f32 0x00000000#32) (ix2 p j)
      = ∑ i : Fin 2048, a (ix2 p i) * b (ix2 i j) := by
  refine (Ideal.matmul_constant_zero_apply dot_S512x2048_S2048x512_S512x512_1_0_0_1_n_n none a b (ix2 p j)).trans ?_
  rw [← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 p j) ((contrEquiv1 dot_S512x2048_S2048x512_S512x512_1_0_0_1_n_n 2048 rfl rfl).symm k) = ix2 p k :=
    funext fun c => Fin.ext (by
      match c with
      | ⟨0, _⟩ => rfl
      | ⟨1, _⟩ => exact (dot_S512x2048_S2048x512_S512x512_1_0_0_1_n_n.lhsIdx_val_of_single rfl _ _).trans hk)
  have er : dot_S512x2048_S2048x512_S512x512_1_0_0_1_n_n.rhsIdx (ix2 p j) ((contrEquiv1 dot_S512x2048_S2048x512_S512x512_1_0_0_1_n_n 2048 rfl rfl).symm k) = ix2 k j :=
    funext fun c => Fin.ext (by
      match c with
      | ⟨0, _⟩ => exact (dot_S512x2048_S2048x512_S512x512_1_0_0_1_n_n.rhsIdx_val_of_single rfl _ _).trans hk
      | ⟨1, _⟩ => rfl)
  rw [el, er]

/-! ## The pointwise operations the library has no index lemma for -/

theorem absf_apply {s : Shape} {φ : FTy} (a : FVec Ideal s φ) (i : s.Idx) : absf a i = max (a i) (-(a i)) := rfl
theorem roundeven_apply {s : Shape} {φ : FTy} (a : FVec Ideal s φ) (i : s.Idx) :
    roundeven a i = Ideal.liftRound Ideal.roundHalfEven (a i) := rfl
theorem rsqrt_apply {s : Shape} {φ : FTy} (a : FVec Ideal s φ) (i : s.Idx) : rsqrt a i = Ideal.rsqrt (a i) := rfl
theorem scalar_ofBits (φ : FTy) (b : BitVec φ.bits) : Scalar.ofBits (F := Ideal) φ b = Ideal.ofBits φ b := rfl

/-! ## The stages -/

/-- the hidden row: row `p` of the block quantized, through the up projection, `relu` squared and the normalisation with its gain -/
theorem pay2_apply (x0 : FVec Ideal S512x512 .f32) (x1 : FVec Ideal S512x2048 .bf16) (x3 : FVec Ideal S1x2048 .f32)
    (p : Fin 512) (j : Fin 2048) :
    k0_pay2 (F := Ideal) x0 x1 x3 (ix2 p j)
      = Cert.Mlp.hidden (Cert.Mlp.quant (fun i : Fin 512 => x0 (ix2 p i))) (fun (j : Fin 2048) (i : Fin 512) => x1 (ix2 i j))
          (fun j : Fin 2048 => x3 (ix2 (0 : Fin 1) j)) j := by
  unfold k0_pay2
  simp only [mulf_apply, addf_apply, divf_apply, maximumf_apply, minimumf_apply, truncf_apply, broadcast_apply, absf_apply, roundeven_apply, rsqrt_apply, scalar_ofBits, shapeCast_self, shapeCast_a_a1_apply, broadcastTo_a1_ab_apply, broadcastTo_1b_ab_apply, matmul_up_apply, matmul_down_apply]
  rw [rowSum_apply]
  simp only [mulf_apply, addf_apply, divf_apply, maximumf_apply, minimumf_apply, truncf_apply, broadcast_apply, absf_apply, roundeven_apply, rsqrt_apply, scalar_ofBits, shapeCast_self, shapeCast_a_a1_apply, broadcastTo_a1_ab_apply, broadcastTo_1b_ab_apply, matmul_up_apply, matmul_down_apply]
  rw [rowMax_apply]
  simp only [mulf_apply, addf_apply, divf_apply, maximumf_apply, minimumf_apply, truncf_apply, broadcast_apply, absf_apply, roundeven_apply, rsqrt_apply, scalar_ofBits, shapeCast_self, shapeCast_a_a1_apply, broadcastTo_a1_ab_apply, broadcastTo_1b_ab_apply, matmul_up_apply, matmul_down_apply]
  simp only [Cert.Mlp.hidden, Cert.Mlp.subln, Cert.Mlp.rms, Cert.Mlp.relu2, Cert.Mlp.up, Cert.Mlp.down, Cert.Mlp.quant, Cert.Mlp.scale, Cert.Mlp.rowMax, Cert.Mlp.mag, Cert.Mlp.rne, Cert.Mlp.tiny, Cert.Mlp.q127, Cert.Mlp.qm128, Cert.Mlp.negInf, Cert.Mlp.zero32, Cert.Mlp.width, Cert.Mlp.eps]

/-- the kept column of row maxima, at row `p`: the largest magnitude of the hidden row -/
theorem pay3_apply (x0 : FVec Ideal S512x512 .f32) (x1 : FVec Ideal S512x2048 .bf16) (x3 : FVec Ideal S1x2048 .f32) (p : Fin 512) :
    k0_pay3 (F := Ideal) x0 x1 x3 (ix2 p (0 : Fin 1))
      = Cert.Mlp.rowMax (fun j : Fin 2048 => k0_pay2 (F := Ideal) x0 x1 x3 (ix2 p j)) := by
  unfold k0_pay3
  generalize k0_pay2 (F := Ideal) x0 x1 x3 = h
  simp only [shapeCast_a_a1_apply]
  rw [rowMax_apply]
  simp only [absf_apply, Cert.Mlp.rowMax, Cert.Mlp.mag, Cert.Mlp.negInf]

/-- the stored block: a hidden row `h` quantized by its largest magnitude `c`, through the down projection -/
theorem pay1_apply (h : FVec Ideal S512x2048 .f32) (c : FVec Ideal S512x1 .f32) (x2 : FVec Ideal S2048x512 .bf16) (p q : Fin 512)
    (hc : c (ix2 p (0 : Fin 1)) = Cert.Mlp.rowMax (fun j : Fin 2048 => h (ix2 p j))) :
    k0_pay1 (F := Ideal) h c x2 (ix2 p q)
      = Cert.Mlp.down (Cert.Mlp.quant (fun j : Fin 2048 => h (ix2 p j))) (fun (k : Fin 512) (j : Fin 2048) => x2 (ix2 j k)) q := by
  unfold k0_pay1
  simp only [mulf_apply, addf_apply, divf_apply, maximumf_apply, minimumf_apply, truncf_apply, broadcast_apply, absf_apply, roundeven_apply, rsqrt_apply, scalar_ofBits, shapeCast_self, shapeCast_a_a1_apply, broadcastTo_a1_ab_apply, broadcastTo_1b_ab_apply, matmul_up_apply, matmul_down_apply]
  rw [hc]
  simp only [Cert.Mlp.down, Cert.Mlp.quant, Cert.Mlp.scale, Cert.Mlp.rne, Cert.Mlp.tiny, Cert.Mlp.q127, Cert.Mlp.qm128]

/-- the body's stored value at (p, q): row p of the block through the quantized MLP, output column q -/
theorem payload_apply (x0 : FVec Ideal S512x512 .f32) (x1 : FVec Ideal S512x2048 .bf16) (x2 : FVec Ideal S2048x512 .bf16)
    (x3 : FVec Ideal S1x2048 .f32) (p q : Fin 512) :
    k0_pay1 (F := Ideal) (k0_pay2 (F := Ideal) x0 x1 x3) (k0_pay3 (F := Ideal) x0 x1 x3) x2 (ix2 p q)
      = Cert.Mlp.mlpRow (fun i : Fin 512 => x0 (ix2 p i)) (fun (j : Fin 2048) (i : Fin 512) => x1 (ix2 i j))
          (fun (k : Fin 512) (j : Fin 2048) => x2 (ix2 j k)) (fun j : Fin 2048 => x3 (ix2 (0 : Fin 1) j)) q := by
  refine (pay1_apply _ _ x2 p q (pay3_apply x0 x1 x3 p)).trans ?_
  have e : (fun j : Fin 2048 => k0_pay2 (F := Ideal) x0 x1 x3 (ix2 p j))
      = Cert.Mlp.hidden (Cert.Mlp.quant (fun i : Fin 512 => x0 (ix2 p i))) (fun (j : Fin 2048) (i : Fin 512) => x1 (ix2 i j))
          (fun j : Fin 2048 => x3 (ix2 (0 : Fin 1) j)) := funext fun j => pay2_apply x0 x1 x3 p j
  rw [e]
  rfl

end Cert.KernelIdeal.Payload

end
-- ==== Proof.KernelBlocks.lean ====
/-
  From blocks to the array.  The grid has 128 points; point t stages rows t · 512 … t · 512 + 511 of the activations
  (all 512 columns), the whole of both weight matrices and the gain, and writes back the same rows of the output.
  The body's stored value at block index (p, q) is row p of the staged activations through the quantized block, column
  q; a block's coordinate in its array is ALWAYS block index × block size + the coordinate inside the block, so that
  row is row t · 512 + p of the array.  Row r lies in the block of point r / 512, so the blocks cover the array, and
  the array the region leaves is one function of the arrays it finds: `rowsOut`.
-/
import proofs.«127805_j87471303951008_1_alg».proof.Proof.Gen.KernelIdeal.Frame
import proofs.«127805_j87471303951008_1_alg».proof.Proof.Spec
import proofs.«127805_j87471303951008_1_alg».proof.Proof.Payload
import Idealize.ShloMosaic.Lib.ValueIdx
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The output array the region leaves, as one function of the arrays it finds: entry (r, k) is row r of the
    activations through the quantized block, column k. -/
def rowsOut (c : Dev nD) : S65536x512.Idx → EReal := fun i =>
  Cert.Mlp.mlpRow (fun a : Fin 512 => V m c main_v0 (ix2 (⟨(i 0).val, (i 0).isLt⟩ : Fin 65536) a))
    (fun (j : Fin 2048) (a : Fin 512) => V m c main_v24 (ix2 a j))
    (fun (k : Fin 512) (j : Fin 2048) => V m c main_v26 (ix2 j k))
    (fun j : Fin 2048 => V m c main_v27 (ix2 (0 : Fin 1) j)) (⟨(i 1).val, (i 1).isLt⟩ : Fin 512)

theorem hz : (![0, 0] : Fin 2 → Nat) = fun _ => 0 := funext fun a => by fin_cases a <;> rfl

/-- The printed index maps over the grid: the activations' and the output's block is point t's, the weights and the gain
    are one block each. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- the row function depends on its five arguments only -/
theorem mlpRow_congr {x x' : Fin 512 → EReal} {WU WU' : Fin 2048 → Fin 512 → EReal} {WD WD' : Fin 512 → Fin 2048 → EReal}
    {g g' : Fin 2048 → EReal} {k k' : Fin 512} (hx : x = x') (hu : WU = WU') (hd : WD = WD') (hg : g = g') (hk : k = k') :
    Cert.Mlp.mlpRow x WU WD g k = Cert.Mlp.mlpRow x' WU' WD' g' k' := by
  subst hx hu hd hg hk; rfl

/-- WHAT POINT t WRITES BACK, at block index (p, q): row t · 512 + p of the activations through the block, column q. -/
theorem flushed_point (c : Dev nD) (t : Fin cfg0.N) (p q : Fin 512) :
    k0_pay1 (F := Ideal) (k0_pay2 (F := Ideal) (iblk m c 0 t) (iblk m c 1 t) (iblk m c 3 t))
        (k0_pay3 (F := Ideal) (iblk m c 0 t) (iblk m c 1 t) (iblk m c 3 t)) (iblk m c 2 t) (ix2 p q)
      = rowsOut m c (((cfg0.win 4).blk t).view.emb (ix2 p q)) := by
  obtain ⟨e00, e01, e10, e11, e20, e21, e30, e31, e40, e41⟩ := idx_facts t
  refine (Cert.KernelIdeal.Payload.payload_apply (iblk m c 0 t) (iblk m c 1 t) (iblk m c 2 t) (iblk m c 3 t) p q).trans ?_
  unfold rowsOut
  refine mlpRow_congr (funext fun i => ?_) (funext fun j => funext fun i => ?_) (funext fun k => funext fun j => ?_)
    (funext fun j => ?_) (Fin.ext ?_)
  · show V m c main_v0 (((cfg0.win 0).blk t).view.emb (ix2 p i)) = _
    refine congrArg (V m c main_v0) (funext fun a => Fin.ext ?_)
    match a with
    | ⟨0, _⟩ => show win0_0.index t (0 : Fin 2) * 512 + 1 * p.val = win0_4.index t (0 : Fin 2) * 512 + 1 * p.val; omega
    | ⟨1, _⟩ => show win0_0.index t (1 : Fin 2) * 512 + 1 * i.val = i.val; omega
  · show V m c main_v24 (((cfg0.win 1).blk t).view.emb (ix2 i j)) = _
    refine congrArg (V m c main_v24) (funext fun a => Fin.ext ?_)
    match a with
    | ⟨0, _⟩ => show win0_1.index t (0 : Fin 2) * 512 + 1 * i.val = i.val; omega
    | ⟨1, _⟩ => show win0_1.index t (1 : Fin 2) * 2048 + 1 * j.val = j.val; omega
  · show V m c main_v26 (((cfg0.win 2).blk t).view.emb (ix2 j k)) = _
    refine congrArg (V m c main_v26) (funext fun a => Fin.ext ?_)
    match a with
    | ⟨0, _⟩ => show win0_2.index t (0 : Fin 2) * 2048 + 1 * j.val = j.val; omega
    | ⟨1, _⟩ => show win0_2.index t (1 : Fin 2) * 512 + 1 * k.val = k.val; omega
  · show V m c main_v27 (((cfg0.win 3).blk t).view.emb (ix2 (0 : Fin 1) j)) = _
    refine congrArg (V m c main_v27) (funext fun a => Fin.ext ?_)
    match a with
    | ⟨0, _⟩ => show win0_3.index t (0 : Fin 2) * 1 + 1 * 0 = 0; omega
    | ⟨1, _⟩ => show win0_3.index t (1 : Fin 2) * 2048 + 1 * j.val = j.val; omega
  · show q.val = win0_4.index t (1 : Fin 2) * 512 + 1 * q.val; omega

/-- WHAT POINT t WRITES BACK is block t of `rowsOut`. -/
theorem flushed_eq (c : Dev nD) (t : Fin cfg0.N) :
    (dats m 0 c).flushed 4 t = ((cfg0.win 4).blk t).view.read (Elt Ideal) (rowsOut m c) := by
  show (cfg0.win 4).cut (grid0.coords t) ((dats m 0 c).after 4 t) = _
  rw [after0_4]
  unfold out0_4
  rw [View.canon_unit_zero hz]
  simp only [View.ld_unit_zero (S := S512x512) hz, View.ld_unit_zero (S := S512x2048) hz,
    View.ld_unit_zero (S := S2048x512) hz, View.ld_unit_zero (S := S1x2048) hz]
  funext y
  have hy : y = ix2 (y 0) (y 1) := eq_ix2 y
  rw [hy]
  exact flushed_point m c t (y 0) (y 1)

/-- An index of the array is in point t's block iff each coordinate is in the block's range on its axis. -/
theorem mem_blk (t : Fin cfg0.N) (i : S65536x512.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v28).slice (win0_4.rect t)).set ↔ _
  rw [View.set_slice_whole, Rect.mem_set_unit]
  exact Iff.rfl

/-- Row r lies in the block of point r / 512: the output's blocks cover the array. -/
theorem cover (i : S65536x512.Idx) :
    ∃ t : Fin cfg0.N, (cfg0.win 4).flush t = true ∧ i ∈ ((cfg0.win 4).blk t).view.set := by
  have hi0 : (i 0).val < 65536 := (i 0).isLt
  have hi1 : (i 1).val < 512 := (i 1).isLt
  have hN : grid0.N = 128 := N_0
  let t : Fin cfg0.N := ⟨(i 0).val / 512, by show (i 0).val / 512 < grid0.N; rw [hN]; omega⟩
  obtain ⟨-, -, -, -, -, -, -, -, e40, e41⟩ := idx_facts t
  have ht : t.val = (i 0).val / 512 := rfl
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 512 ≤ (i 1).val ∧ (i 1).val < win0_4.index t (1 : Fin 2) * 512 + 512; omega

/-- THE ARRAY after the region: `rowsOut`. -/
theorem final (c : Dev nD) : (dats m 0 c).arrAt 4 cfg0.N = rowsOut m c :=
  (dats m 0 c).arrAt_eq_of_cover 4 (rowsOut m c) (fun t _ => flushed_eq m c t) cover

end Cert.KernelIdeal.Blocks

end
-- ==== Proof.Algebra.lean ====
/-
  Pure mathematics on the extended reals: over real inputs every value that reaches a straight-through
  form `v + (q - v)` is a real number, and on a real `v` that form equals `q`.

  `v + (q - v) = q` fails only at an infinite `v` (`+∞ + (q - ∞)` is `-∞`).  So the work is closure:
  sums, products, maxima, minima, rounding, division by a positive real and the reciprocal root of a
  positive real all keep the reals; the two scales are positive reals because their denominators are
  floored by `tiny > 0`; hence both quantized rows and the hidden row between them are real.
-/
import proofs.«127805_j87471303951008_1_alg».proof.Proof.Spec

noncomputable section

namespace Cert.Mlp

open Idealize.ShloMosaic

/-! ## The literals as numbers

Each pattern is read through `Ideal.ofBits` at f32: sign, eight exponent bits (bias 127), 23 fraction bits. -/

/-- `0x42FE0000` is `(2^23 + 0x7E0000) · 2^(133 - 150) = 127` -/
theorem q127_eq : q127 = ((127 : ℝ) : EReal) := by
  simp [q127, Ideal.ofBits, Ideal.ieee, -EReal.coe_mul]; norm_num
/-- `0xC3000000` is `-2^23 · 2^(134 - 150) = -128` -/
theorem qm128_eq : qm128 = ((-128 : ℝ) : EReal) := by
  simp [qm128, Ideal.ofBits, Ideal.ieee, -EReal.coe_mul]; norm_num
/-- `0xFF800000`: sign set, exponent all ones, fraction zero, is `-∞` -/
theorem negInf_eq : negInf = ⊥ := by
  simp [negInf, Ideal.ofBits, Ideal.ieee]
/-- the all-zero pattern is `0` -/
theorem zero32_eq : zero32 = ((0 : ℝ) : EReal) := by
  simp [zero32, Ideal.ofBits, Ideal.ieee]
/-- `0x45000000` is `2^23 · 2^(138 - 150) = 2048` -/
theorem width_eq : width = ((2048 : ℝ) : EReal) := by
  simp [width, Ideal.ofBits, Ideal.ieee, -EReal.coe_mul]; norm_num
/-- `0x49800000` is `2^23 · 2^(147 - 150) = 2^20 = 1048576` -/
theorem count_eq : count = ((1048576 : ℝ) : EReal) := by
  simp [count, Ideal.ofBits, Ideal.ieee, -EReal.coe_mul]; norm_num
/-- `0x3F800000` is `2^23 · 2^(127 - 150) = 1` -/
theorem one32_eq : one32 = ((1 : ℝ) : EReal) := by
  simp [one32, Ideal.ofBits, Ideal.ieee, -EReal.coe_mul]; norm_num
/-- `0xBF800000` is `-1` -/
theorem mone32_eq : mone32 = ((-1 : ℝ) : EReal) := by
  simp [mone32, Ideal.ofBits, Ideal.ieee, -EReal.coe_mul]; norm_num
/-- `0x3727C5AC` is `(2^23 + 0x27C5AC) · 2^(110 - 150) = 10995116 / 2^40` -/
theorem tiny_eq : tiny = ((10995116 / 2 ^ 40 : ℝ) : EReal) := by
  simp [tiny, Ideal.ofBits, Ideal.ieee, -EReal.coe_mul]; norm_num
/-- `0x358637BD` is `(2^23 + 0x0637BD) · 2^(107 - 150) = 8796093 / 2^43` -/
theorem eps_eq : eps = ((8796093 / 2 ^ 43 : ℝ) : EReal) := by
  simp [eps, Ideal.ofBits, Ideal.ieee, -EReal.coe_mul]; norm_num

/-! ## Real, nonnegative and positive extended reals -/

/-- an extended real that is a real number `≥ 0` -/
def IsNonneg (x : EReal) : Prop := ∃ r : ℝ, 0 ≤ r ∧ x = (r : EReal)
/-- an extended real that is a real number `> 0` -/
def IsPos (x : EReal) : Prop := ∃ r : ℝ, 0 < r ∧ x = (r : EReal)

theorem IsPos.isReal {x : EReal} (h : IsPos x) : IsReal x := by
  obtain ⟨r, _, e⟩ := h; exact ⟨r, e⟩
theorem IsNonneg.isReal {x : EReal} (h : IsNonneg x) : IsReal x := by
  obtain ⟨r, _, e⟩ := h; exact ⟨r, e⟩
theorem isReal_coe (r : ℝ) : IsReal (r : EReal) := ⟨r, rfl⟩
/-- a real number is not `+∞` -/
theorem IsReal.ne_top {x : EReal} (h : IsReal x) : x ≠ ⊤ := by
  obtain ⟨r, rfl⟩ := h; exact EReal.coe_ne_top r

/-! ### The field operations, the lattice operations and rounding keep the reals -/

theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.neg {a : EReal} (ha : IsReal a) : IsReal (-a) := by
  obtain ⟨r, rfl⟩ := ha; exact ⟨-r, (EReal.coe_neg r).symm⟩
/-- the larger of two reals is one of them -/
theorem IsReal.max {a b : EReal} (ha : IsReal a) (hb : IsReal b) : IsReal (max a b) := by
  rcases le_total a b with h | h
  · rw [max_eq_right h]; exact hb
  · rw [max_eq_left h]; exact ha
/-- the smaller of two reals is one of them -/
theorem IsReal.min {a b : EReal} (ha : IsReal a) (hb : IsReal b) : IsReal (min a b) := by
  rcases le_total a b with h | h
  · rw [min_eq_left h]; exact ha
  · rw [min_eq_right h]; exact hb
/-- `|a| = max a (-a)` -/
theorem IsReal.mag {a : EReal} (ha : IsReal a) : IsReal (mag a) := ha.max ha.neg
/-- rounding a real gives an integer, which is a real -/
theorem IsReal.rne {a : EReal} (ha : IsReal a) : IsReal (rne a) := by
  obtain ⟨r, rfl⟩ := ha; exact ⟨_, Ideal.liftRound_coe r Ideal.roundHalfEven⟩
/-- a finite sum of reals is real: `0` is real and `+` keeps the reals -/
theorem IsReal.sum {ι : Type} (s : Finset ι) (f : ι → EReal) (hf : ∀ i ∈ s, IsReal (f i)) :
    IsReal (∑ i ∈ s, f i) :=
  Finset.sum_induction f IsReal (fun _ _ => IsReal.add) ⟨0, EReal.coe_zero.symm⟩ hf
/-- a real square is `≥ 0` -/
theorem IsReal.mul_self {a : EReal} (ha : IsReal a) : IsNonneg (a * a) := by
  obtain ⟨r, rfl⟩ := ha; exact ⟨r * r, mul_self_nonneg r, (EReal.coe_mul r r).symm⟩
theorem IsNonneg.add {a b : EReal} (ha : IsNonneg a) (hb : IsNonneg b) : IsNonneg (a + b) := by
  obtain ⟨r, hr, rfl⟩ := ha; obtain ⟨s, hs, rfl⟩ := hb
  exact ⟨r + s, add_nonneg hr hs, (EReal.coe_add r s).symm⟩
/-- a finite sum of reals `≥ 0` is a real `≥ 0` -/
theorem IsNonneg.sum {ι : Type} (s : Finset ι) (f : ι → EReal) (hf : ∀ i ∈ s, IsNonneg (f i)) :
    IsNonneg (∑ i ∈ s, f i) :=
  Finset.sum_induction f IsNonneg (fun _ _ => IsNonneg.add) ⟨0, le_refl 0, EReal.coe_zero.symm⟩ hf
/-- `(≥ 0) + (> 0)` is `> 0` -/
theorem IsNonneg.add_pos {a b : EReal} (ha : IsNonneg a) (hb : IsPos b) : IsPos (a + b) := by
  obtain ⟨r, hr, rfl⟩ := ha; obtain ⟨s, hs, rfl⟩ := hb
  exact ⟨r + s, add_pos_of_nonneg_of_pos hr hs, (EReal.coe_add r s).symm⟩

/-! ### Division by a positive real is multiplication by its reciprocal, a positive real -/

theorem IsReal.div_pos {x y : EReal} (hx : IsReal x) (hy : IsPos y) : IsReal (Ideal.div x y) := by
  obtain ⟨s, hs, rfl⟩ := hy
  rw [Ideal.div_coe hs.ne']; exact hx.mul (isReal_coe _)
theorem IsNonneg.div_pos {x y : EReal} (hx : IsNonneg x) (hy : IsPos y) : IsNonneg (Ideal.div x y) := by
  obtain ⟨r, hr, rfl⟩ := hx; obtain ⟨s, hs, rfl⟩ := hy
  rw [Ideal.div_coe hs.ne']
  exact ⟨r * (1 / s), mul_nonneg hr (one_div_pos.2 hs).le, (EReal.coe_mul _ _).symm⟩
theorem IsPos.div_pos {x y : EReal} (hx : IsPos x) (hy : IsPos y) : IsPos (Ideal.div x y) := by
  obtain ⟨r, hr, rfl⟩ := hx; obtain ⟨s, hs, rfl⟩ := hy
  rw [Ideal.div_coe hs.ne']
  exact ⟨r * (1 / s), mul_pos hr (one_div_pos.2 hs), (EReal.coe_mul _ _).symm⟩
/-- at a real `r > 0` the reciprocal root is `(√r)⁻¹`: neither corner (`r < 0`, `r = 0`) is met -/
theorem IsPos.rsqrt {x : EReal} (hx : IsPos x) : IsReal (Ideal.rsqrt x) := by
  obtain ⟨r, hr, rfl⟩ := hx
  rw [Ideal.rsqrt_coe, if_neg (not_lt.2 hr.le), if_neg hr.ne']
  exact ⟨_, rfl⟩

/-! ### The literals' signs -/

theorem tiny_pos : IsPos tiny := ⟨_, by norm_num, tiny_eq⟩
theorem eps_pos : IsPos eps := ⟨_, by norm_num, eps_eq⟩
theorem q127_pos : IsPos q127 := ⟨_, by norm_num, q127_eq⟩
theorem one32_pos : IsPos one32 := ⟨_, by norm_num, one32_eq⟩
theorem width_pos : IsPos width := ⟨_, by norm_num, width_eq⟩
theorem count_pos : IsPos count := ⟨_, by norm_num, count_eq⟩
theorem qm128_real : IsReal qm128 := ⟨_, qm128_eq⟩
theorem mone32_real : IsReal mone32 := ⟨_, mone32_eq⟩
theorem zero32_real : IsReal zero32 := ⟨_, zero32_eq⟩

/-! ## The scales are positive reals -/

/-- `max tiny m` with `m ≠ +∞`: at `m = -∞` it is `tiny`; at a real `m` it is a real `≥ tiny > 0` -/
theorem max_tiny_pos {m : EReal} (hm : m ≠ ⊤) : IsPos (max tiny m) := by
  obtain ⟨t, ht, e⟩ := tiny_pos
  rw [e]
  induction m using EReal.rec with
  | bot => rw [max_eq_left bot_le]; exact ⟨t, ht, rfl⟩
  | coe s =>
    rcases le_total t s with h | h
    · rw [max_eq_right (EReal.coe_le_coe_iff.2 h)]; exact ⟨s, lt_of_lt_of_le ht h, rfl⟩
    · rw [max_eq_left (EReal.coe_le_coe_iff.2 h)]; exact ⟨t, ht, rfl⟩
  | top => exact absurd rfl hm

/-- a maximum that starts at `-∞` and runs over real magnitudes stays below `+∞` -/
theorem rowMax_ne_top {n : ℕ} (v : Fin n → EReal) (hv : ∀ i, IsReal (v i)) : rowMax v ≠ ⊤ := by
  refine ne_of_lt ?_
  rw [rowMax, Finset.fold_max_lt]
  refine ⟨by rw [negInf_eq]; exact bot_lt_top, fun i _ => ?_⟩
  obtain ⟨r, hr⟩ := (hv i).mag
  rw [hr]; exact EReal.coe_lt_top r

/-- `127 / (a positive real)` -/
theorem scale_pos {n : ℕ} (v : Fin n → EReal) (hv : ∀ i, IsReal (v i)) : IsPos (scale v) :=
  q127_pos.div_pos (max_tiny_pos (rowMax_ne_top v hv))

/-- a real row quantizes to a real row: product, rounding, clipping, and division by a positive real -/
theorem quant_real {n : ℕ} (v : Fin n → EReal) (hv : ∀ i, IsReal (v i)) (i : Fin n) : IsReal (quant v i) :=
  (q127_pos.isReal.min (qm128_real.max ((hv i).mul (scale_pos v hv).isReal).rne)).div_pos (scale_pos v hv)

/-- the mean magnitude of real weights is real, so its floor by `tiny` is positive, and so is `1` over that -/
theorem wScale_pos {ι : Type} [Fintype ι] (w : ι → EReal) (hw : ∀ i, IsReal (w i)) : IsPos (wScale w) :=
  one32_pos.div_pos (max_tiny_pos
    ((zero32_real.add (IsReal.sum _ _ fun i _ => (hw i).mag)).div_pos count_pos).ne_top)

/-- a matrix of real weights quantizes to real weights -/
theorem wQuant_real {ι : Type} [Fintype ι] (w : ι → EReal) (hw : ∀ i, IsReal (w i)) (i : ι) : IsReal (wQuant w i) :=
  (one32_pos.isReal.min (mone32_real.max ((hw i).mul (wScale_pos w hw).isReal).rne)).div_pos (wScale_pos w hw)

/-! ## The hidden row is real -/

theorem up_real (xq : Fin 512 → EReal) (WU : Fin 2048 → Fin 512 → EReal)
    (hx : ∀ i, IsReal (xq i)) (hWU : ∀ j i, IsReal (WU j i)) (j : Fin 2048) : IsReal (up xq WU j) :=
  IsReal.sum _ _ fun i _ => (hx i).mul (hWU j i)

theorem relu2_real {a : EReal} (ha : IsReal a) : IsReal (relu2 a) :=
  (ha.max zero32_real).mul (ha.max zero32_real)

/-- the mean square of a real row is a real `≥ 0`; with `eps > 0` added the root's argument is `> 0` -/
theorem rms_real (h : Fin 2048 → EReal) (hh : ∀ j, IsReal (h j)) : IsReal (rms h) :=
  (((IsNonneg.sum _ _ fun j _ => (hh j).mul_self).div_pos width_pos).add_pos eps_pos).rsqrt

theorem subln_real (h g : Fin 2048 → EReal) (hh : ∀ j, IsReal (h j)) (hg : ∀ j, IsReal (g j)) (j : Fin 2048) :
    IsReal (subln h g j) :=
  ((hh j).mul (rms_real h hh)).mul (hg j)

theorem hidden_real (xq : Fin 512 → EReal) (WU : Fin 2048 → Fin 512 → EReal) (g : Fin 2048 → EReal)
    (hx : ∀ i, IsReal (xq i)) (hWU : ∀ j i, IsReal (WU j i)) (hg : ∀ j, IsReal (g j)) (j : Fin 2048) :
    IsReal (hidden xq WU g j) :=
  subln_real _ g (fun j => relu2_real (up_real xq WU hx hWU j)) hg j

/-! ## The straight-through form -/

/-- on a real `v` the straight-through form is the quantized value: `v + (-∞ - v) = -∞`,
    `v + (+∞ - v) = +∞`, and `v + (s - v) = s` in the reals -/
theorem ste_eq {v : EReal} (hv : IsReal v) (q : EReal) : ste v q = q := by
  obtain ⟨r, rfl⟩ := hv
  rw [ste]
  induction q using EReal.rec with
  | bot => rw [EReal.bot_sub, EReal.add_bot]
  | coe s => rw [← EReal.coe_sub, ← EReal.coe_add, add_sub_cancel]
  | top => rw [EReal.top_sub_coe, EReal.coe_add_top]

/-- on a real row the straight-through quantizer is the quantizer -/
theorem steQuant_eq {n : ℕ} (v : Fin n → EReal) (hv : ∀ i, IsReal (v i)) : steQuant v = quant v :=
  funext fun i => ste_eq (hv i) _

/-- over real activations, real (already quantized) up-projection weights and a real gain, the straight-through row is the plain row -/
theorem refRow_eq (x : Fin 512 → EReal) (WU : Fin 2048 → Fin 512 → EReal) (WD : Fin 512 → Fin 2048 → EReal) (g : Fin 2048 → EReal)
    (hx : ∀ i, IsReal (x i)) (hWU : ∀ j i, IsReal (WU j i)) (hg : ∀ j, IsReal (g j)) (k : Fin 512) :
    refRow x WU WD g k = mlpRow x WU WD g k := by
  rw [refRow, mlpRow, steQuant_eq x hx,
    steQuant_eq _ (hidden_real (quant x) WU g (quant_real x hx) hWU hg)]

end Cert.Mlp

end
-- ==== Proof.Result.lean ====
/-
  The whole result array both programs end with, as one function of the four argument arrays:
  entry (b, s, k) is token (b, s) through the quantized block over the two quantized weight matrices, column k.
  Over real arguments the reference's straight-through row, over the straight-through forms of the quantized
  weights, is this entry: a real weight's straight-through form is its quantized value (`ste_eq`), quantized real
  weights are real (`wQuant_real`), and then the straight-through row is the plain row (`refRow_eq`).
-/
import proofs.«127805_j87471303951008_1_alg».proof.Proof.Spec
import proofs.«127805_j87471303951008_1_alg».proof.Proof.Algebra
import Idealize.ShloMosaic.Lib.ValueIdx

noncomputable section

namespace Cert.Mlp

open Idealize.ShloMosaic Idealize.ShloMosaic.ValueIdx

/-- the result array: token (b, s) through the block, column k -/
def result (X : (⟨3, ![8, 8192, 512]⟩ : Shape).Idx → EReal) (WUP : (⟨2, ![2048, 512]⟩ : Shape).Idx → EReal)
    (WDN : (⟨2, ![512, 2048]⟩ : Shape).Idx → EReal) (G : (⟨1, ![2048]⟩ : Shape).Idx → EReal) :
    (⟨3, ![8, 8192, 512]⟩ : Shape).Idx → EReal := fun i =>
  mlpRow (fun a : Fin 512 => X (ix3 (⟨(i 0).val, (i 0).isLt⟩ : Fin 8) (⟨(i 1).val, (i 1).isLt⟩ : Fin 8192) a))
    (fun (j : Fin 2048) (a : Fin 512) => wQuant WUP (ix2 j a))
    (fun (k : Fin 512) (j : Fin 2048) => wQuant WDN (ix2 k j))
    (fun j : Fin 2048 => G (ix1 j)) (⟨(i 2).val, (i 2).isLt⟩ : Fin 512)

/-- the result at (b, s, k), spelt with the three coordinates -/
theorem result_apply (X : (⟨3, ![8, 8192, 512]⟩ : Shape).Idx → EReal) (WUP : (⟨2, ![2048, 512]⟩ : Shape).Idx → EReal)
    (WDN : (⟨2, ![512, 2048]⟩ : Shape).Idx → EReal) (G : (⟨1, ![2048]⟩ : Shape).Idx → EReal)
    (b : Fin 8) (s : Fin 8192) (k : Fin 512) :
    result X WUP WDN G (ix3 b s k)
      = mlpRow (fun a : Fin 512 => X (ix3 b s a)) (fun (j : Fin 2048) (a : Fin 512) => wQuant WUP (ix2 j a))
          (fun (k' : Fin 512) (j : Fin 2048) => wQuant WDN (ix2 k' j)) (fun j : Fin 2048 => G (ix1 j)) k := rfl

/-- over real arguments, the straight-through row over straight-through weights is the result's entry -/
theorem refRow_result (X : (⟨3, ![8, 8192, 512]⟩ : Shape).Idx → EReal) (WUP : (⟨2, ![2048, 512]⟩ : Shape).Idx → EReal)
    (WDN : (⟨2, ![512, 2048]⟩ : Shape).Idx → EReal) (G : (⟨1, ![2048]⟩ : Shape).Idx → EReal)
    (hX : ∀ i, IsReal (X i)) (hU : ∀ i, IsReal (WUP i)) (hD : ∀ i, IsReal (WDN i)) (hG : ∀ i, IsReal (G i))
    (b : Fin 8) (s : Fin 8192) (k : Fin 512) :
    refRow (fun i : Fin 512 => X (ix3 b s i))
        (fun (j : Fin 2048) (i : Fin 512) => ste (WUP (ix2 j i)) (wQuant WUP (ix2 j i)))
        (fun (k' : Fin 512) (j : Fin 2048) => ste (WDN (ix2 k' j)) (wQuant WDN (ix2 k' j)))
        (fun j : Fin 2048 => G (ix1 j)) k
      = result X WUP WDN G (ix3 b s k) := by
  have hu : (fun (j : Fin 2048) (i : Fin 512) => ste (WUP (ix2 j i)) (wQuant WUP (ix2 j i)))
      = fun (j : Fin 2048) (i : Fin 512) => wQuant WUP (ix2 j i) :=
    funext fun j => funext fun i => ste_eq (hU _) _
  have hd : (fun (k' : Fin 512) (j : Fin 2048) => ste (WDN (ix2 k' j)) (wQuant WDN (ix2 k' j)))
      = fun (k' : Fin 512) (j : Fin 2048) => wQuant WDN (ix2 k' j) :=
    funext fun k' => funext fun j => ste_eq (hD _) _
  rw [hu, hd, result_apply]
  exact refRow_eq _ _ _ _ (fun i => hX _) (fun j i => wQuant_real WUP hU _) (fun j => hG _) k

end Cert.Mlp

end
-- ==== Proof.KernelRun.lean ====
/-
  The kernel's run, read: after the region a recast takes the [65536, 512] rows back to [8, 8192, 512] tokens, row
  b · 8192 + s to token (b, s).  With the arrays the region finds read at an index (the activations' rows are the tokens, the
  weights the quantized matrices transposed, the gain's one row the gain), the array the program returns is
  `Cert.Mlp.result` of the four arguments.
-/
import proofs.«127805_j87471303951008_1_alg».proof.Proof.Gen.KernelIdeal.Frame
import proofs.«127805_j87471303951008_1_alg».proof.Proof.KernelHost
import proofs.«127805_j87471303951008_1_alg».proof.Proof.KernelBlocks
import proofs.«127805_j87471303951008_1_alg».proof.Proof.Result
import Idealize.ShloMosaic.Lib.ValueIdx
import Idealize.ShloMosaic.Lib.Pipeline.Value
import Idealize.ShloMosaic.Lib.StableHlo.Run

noncomputable section

namespace Cert.KernelIdeal.RunValue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- the line after the region: the region's output array, recast -/
theorem tail (c : Dev nD) :
    Pipeline.afterTail₀ cfgs (dats m) 0 (V0 m) [hostOps1] c main_v29
      = shapeCast S8x8192x512 ((dats m 0 c).arrAt 4 cfg0.N) shapeCasts_S65536x512_S8x8192x512 := by
  unfold Pipeline.afterTail₀
  show StableHlo.after hostOps1 _ (Proc.devRef .tc main_v29) = _
  after_results
  rw [Pipeline.withArrays_arr spec0 launch0.win.arr_inj c _ _ 4]
  rfl

/-- the rows recast to tokens are the result array -/
theorem rows_result (c : Dev nD) :
    shapeCast S8x8192x512 (Blocks.rowsOut m c) shapeCasts_S65536x512_S8x8192x512
      = Cert.Mlp.result (m ((c : Thread nD τ).loc main_arg0)) (m ((c : Thread nD τ).loc main_arg1))
          (m ((c : Thread nD τ).loc main_arg2)) (m ((c : Thread nD τ).loc main_arg3)) := by
  funext i
  obtain ⟨b, s, k, rfl⟩ : ∃ (b : Fin 8) (s : Fin 8192) (k : Fin 512), i = ix3 b s k := ⟨i 0, i 1, i 2, eq_ix3 i⟩
  have hr : b.val * 8192 + s.val < 65536 := by have := b.isLt; have := s.isLt; omega
  rw [shapeCast_apply _ shapeCasts_S65536x512_S8x8192x512 (ix3 b s k) (ix2 (⟨b.val * 8192 + s.val, hr⟩ : Fin 65536) k)
    (by rw [Shape.rowMajor_val_two, Shape.rowMajor_val_three]; rfl)]
  rw [Cert.Mlp.result_apply]
  unfold Blocks.rowsOut
  refine Blocks.mlpRow_congr (funext fun a => ?_) (funext fun j => funext fun a => ?_)
    (funext fun k' => funext fun j => ?_) (funext fun j => ?_) rfl
  · exact HostValue.V_rows_apply m c b s a hr
  · exact HostValue.V_up_apply m c a j
  · exact HostValue.V_down_apply m c j k'
  · exact HostValue.V_gain_apply m c j

/-- THE RUN: every weakly fair execution terminates with the returned array at `result` of the arguments, the
    arguments unchanged. -/
theorem run : θ_run defs (onTc (τ := τ) (main (F := Ideal))) ⟨m, fun _ => 0, ρ⟩ fun r => ∀ c : Dev nD,
      r.2.mem ((c.tc : Thread nD τ).loc main_v29)
          = Cert.Mlp.result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v29 (Pipeline.mem_restRefs_of main_v29 (by decide) (by decide))).trans
        ((tail m c).trans (by rw [Blocks.final]; exact rows_result m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.RunValue

end
-- ==== Proof.LibHostRead.lean ====
/-
  Reading a line of host operations one operation at a time.

  A line is a list of operations, each writing one buffer. After the whole line, the buffer the k-th operation writes
  holds that operation's function of what the first k operations left, provided no later operation writes it again; and
  a buffer that no operation from the k-th on writes holds after the whole line what it held after the first k. So the
  contents of every buffer after the line can be read off stage by stage, in program order, each stage from the stages
  of its operands.

  An operation of a module-local function names its buffers through typed references, and moves contents between a
  buffer's own type and the value's type along the equation of the two. Those transports are identities; stated with
  heterogeneous equality they vanish once the typed reference is opened and its equation substituted.
-/
import Idealize.ShloMosaic.Lib.StableHlo.Run

namespace HostRead

open Idealize.ShloMosaic Idealize.ShloMosaic.StableHlo Idealize.ShloMosaic.TcCoe

variable {sig : RefSig} {τ : Topo} {Val : EltTy → Type}

/-- Each operation of `l` writes exactly the buffer listed at its place in `ys`. -/
abbrev Outs (l : List (HloOp τ sig Val)) (ys : List (Ref sig .tc)) : Prop :=
  List.Forall₂ (fun op y => op.writes = {Proc.devRef (τ := τ) .tc y}) l ys

/-- A line run after another is the two run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A reference not among a line's results is written by none of its operations. -/
theorem not_written {l : List (HloOp τ sig Val)} {ys : List (Ref sig .tc)} (h : Outs l ys) (r : Ref sig .tc) (hr : r ∉ ys) :
    ∀ op ∈ l, Proc.devRef (τ := τ) .tc r ∉ op.writes := by
  induction h with
  | nil => intro op hop; cases hop
  | @cons op₀ y l' ys' hw _ ih =>
    intro op hop
    rcases List.mem_cons.mp hop with rfl | hop
    · rw [hw, Finset.mem_singleton]
      exact devRef_ne_of_ne (fun e => hr (e ▸ List.mem_cons_self))
    · exact ih (fun h' => hr (List.mem_cons_of_mem _ h')) op hop

/-- A buffer none of the operations from the `k`-th on writes: after the line, what the first `k` left. -/
theorem after_take {l : List (HloOp τ sig Val)} {ys : List (Ref sig .tc)} (h : Outs l ys) (k : Nat) (r : Ref sig .tc)
    (hr : r ∉ ys.drop k) (V : Valuation τ sig Val) :
    after l V (Proc.devRef .tc r) = after (l.take k) V (Proc.devRef .tc r) := by
  have e := after_append (l.take k) (l.drop k) V
  rw [List.take_append_drop] at e
  rw [e]
  exact after_of_forall_not_mem _ _ (not_written (List.forall₂_drop k h) r hr)

/-- The buffer the `k`-th operation writes, if none after it writes it again: after the line, that operation's result
    from what the first `k` left. -/
theorem after_at {l : List (HloOp τ sig Val)} {ys : List (Ref sig .tc)} (h : Outs l ys) (k : Nat) (op : HloOp τ sig Val)
    (y : Ref sig .tc) (hk : l[k]? = some op) (hy : y ∉ ys.drop (k + 1)) (V : Valuation τ sig Val) :
    after l V (Proc.devRef .tc y) = op.result (after (l.take k) V) (Proc.devRef .tc y) := by
  rw [after_take h (k + 1) y hy V]
  have e : l.take (k + 1) = l.take k ++ [op] := by rw [List.take_succ, hk]; rfl
  rw [e, after_append]
  rfl

/-! ## Operations over typed references -/

section Typed

variable {Tx Ta Tb Tc Ty : BufTy}

/-- A constant into a typed reference's buffer: the buffer holds the constant. -/
theorem tnullary_heq (y : TRef sig Ty) (v : Ty.Contents Val) (F : Valuation τ sig Val) :
    HEq ((TRef.nullary (τ := τ) y v).result F (Proc.devRef .tc y.ref)) v := by
  obtain ⟨ry, rfl, _, _⟩ := y
  rw [nullary_result]
  exact cast_heq _ _

/-- A one-operand operation over typed references: the result buffer holds the function of the operand's contents. -/
theorem tunary_heq (x : TRef sig Tx) (y : TRef sig Ty) (f : Tx.Contents Val → Ty.Contents Val) (F : Valuation τ sig Val)
    (vx : Tx.Contents Val) (hx : HEq (F (Proc.devRef .tc x.ref)) vx) :
    HEq ((TRef.unary (τ := τ) x y f).result F (Proc.devRef .tc y.ref)) (f vx) := by
  obtain ⟨rx, rfl, _, _⟩ := x
  obtain ⟨ry, rfl, _, _⟩ := y
  obtain rfl := eq_of_heq hx
  rw [unary_result]
  exact cast_heq _ _

/-- A two-operand operation over typed references. -/
theorem tbinary_heq (a : TRef sig Ta) (b : TRef sig Tb) (y : TRef sig Ty) (f : Ta.Contents Val → Tb.Contents Val → Ty.Contents Val)
    (F : Valuation τ sig Val) (va : Ta.Contents Val) (vb : Tb.Contents Val)
    (ha : HEq (F (Proc.devRef .tc a.ref)) va) (hb : HEq (F (Proc.devRef .tc b.ref)) vb) :
    HEq ((TRef.binary (τ := τ) a b y f).result F (Proc.devRef .tc y.ref)) (f va vb) := by
  obtain ⟨ra, rfl, _, _⟩ := a
  obtain ⟨rb, rfl, _, _⟩ := b
  obtain ⟨ry, rfl, _, _⟩ := y
  obtain rfl := eq_of_heq ha
  obtain rfl := eq_of_heq hb
  rw [binary_result]
  exact cast_heq _ _

/-- A three-operand operation over typed references. -/
theorem tternary_heq (c : TRef sig Tc) (a : TRef sig Ta) (b : TRef sig Tb) (y : TRef sig Ty)
    (f : Tc.Contents Val → Ta.Contents Val → Tb.Contents Val → Ty.Contents Val)
    (F : Valuation τ sig Val) (vc : Tc.Contents Val) (va : Ta.Contents Val) (vb : Tb.Contents Val)
    (hc : HEq (F (Proc.devRef .tc c.ref)) vc) (ha : HEq (F (Proc.devRef .tc a.ref)) va) (hb : HEq (F (Proc.devRef .tc b.ref)) vb) :
    HEq ((TRef.ternary (τ := τ) c a b y f).result F (Proc.devRef .tc y.ref)) (f vc va vb) := by
  obtain ⟨rc, rfl, _, _⟩ := c
  obtain ⟨ra, rfl, _, _⟩ := a
  obtain ⟨rb, rfl, _, _⟩ := b
  obtain ⟨ry, rfl, _, _⟩ := y
  obtain rfl := eq_of_heq hc
  obtain rfl := eq_of_heq ha
  obtain rfl := eq_of_heq hb
  rw [ternary_result]
  exact cast_heq _ _

end Typed

end HostRead
-- ==== Proof.LibHostSsa.lean ====
/-
  A line of host operations in which every buffer is written once, read as a system of equations.

  When each operation of a line writes one buffer of its own and no later operation writes that buffer again, what the
  buffer holds after the WHOLE line is the operation's function of what its operand buffers hold after the WHOLE line:
  an operand is written, if at all, before the operation, so the line's later operations leave it alone.  Each lemma
  below states this for one kind of operation, the k-th of the line; the side conditions are that the result buffer is
  not among the buffers written after place k, and that no operand is among the buffers written from place k on.
-/
import proofs.«127805_j87471303951008_1_alg».proof.Proof.LibHostRead

namespace HostRead

open Idealize.ShloMosaic Idealize.ShloMosaic.StableHlo Idealize.ShloMosaic.TcCoe

variable {sig : RefSig} {τ : Topo} {Val : EltTy → Type}
variable {l : List (HloOp τ sig Val)} {ys : List (Ref sig .tc)}

/-- A constant: after the line the buffer holds it. -/
theorem nullary_at (h : Outs l ys) (V : Valuation τ sig Val) (k : Nat) (y : Ref sig .tc) (v : y.ty.Contents Val) (hy)
    (hk : l[k]? = some (nullary y v hy)) (hy' : y ∉ ys.drop (k + 1)) :
    after l V (Proc.devRef .tc y) = v := by
  rw [after_at h k _ y hk hy' V, nullary_result]

/-- A one-operand operation. -/
theorem unary_at (h : Outs l ys) (V : Valuation τ sig Val) (k : Nat) (x y : Ref sig .tc)
    (f : x.ty.Contents Val → y.ty.Contents Val) (hx hy)
    (hk : l[k]? = some (unary x y f hx hy)) (hy' : y ∉ ys.drop (k + 1)) (hx' : x ∉ ys.drop k) :
    after l V (Proc.devRef .tc y) = f (after l V (Proc.devRef .tc x)) := by
  rw [after_at h k _ y hk hy' V, unary_result, after_take h k x hx' V]

/-- A reshape. -/
theorem reshape_at (h : Outs l ys) (V : Valuation τ sig Val) (k : Nat) (x y : Ref sig .tc) (he hn hx hy)
    (hk : l[k]? = some (reshape (Val := Val) x y he hn hx hy)) (hy' : y ∉ ys.drop (k + 1)) (hx' : x ∉ ys.drop k) :
    after l V (Proc.devRef .tc y) = fun i => he ▸ shapeCast y.ty.shape (after l V (Proc.devRef .tc x)) hn i := by
  rw [after_at h k _ y hk hy' V, reshape_result, after_take h k x hx' V]

/-- A two-operand operation. -/
theorem binary_at (h : Outs l ys) (V : Valuation τ sig Val) (k : Nat) (a b y : Ref sig .tc)
    (f : a.ty.Contents Val → b.ty.Contents Val → y.ty.Contents Val) (ha hb hy)
    (hk : l[k]? = some (binary a b y f ha hb hy)) (hy' : y ∉ ys.drop (k + 1)) (ha' : a ∉ ys.drop k) (hb' : b ∉ ys.drop k) :
    after l V (Proc.devRef .tc y) = f (after l V (Proc.devRef .tc a)) (after l V (Proc.devRef .tc b)) := by
  rw [after_at h k _ y hk hy' V, binary_result, after_take h k a ha' V, after_take h k b hb' V]

/-- A three-operand operation. -/
theorem ternary_at (h : Outs l ys) (V : Valuation τ sig Val) (k : Nat) (c a b y : Ref sig .tc)
    (f : c.ty.Contents Val → a.ty.Contents Val → b.ty.Contents Val → y.ty.Contents Val) (hc ha hb hy)
    (hk : l[k]? = some (ternary c a b y f hc ha hb hy)) (hy' : y ∉ ys.drop (k + 1))
    (hc' : c ∉ ys.drop k) (ha' : a ∉ ys.drop k) (hb' : b ∉ ys.drop k) :
    after l V (Proc.devRef .tc y)
      = f (after l V (Proc.devRef .tc c)) (after l V (Proc.devRef .tc a)) (after l V (Proc.devRef .tc b)) := by
  rw [after_at h k _ y hk hy' V, ternary_result, after_take h k c hc' V, after_take h k a ha' V, after_take h k b hb' V]

end HostRead
-- ==== Proof.LibHostOnce.lean ====
/-
  A line of host operations in which every buffer is written once: the side conditions, from the list of written
  buffers having no repetition.

  When the buffers a line writes are all different, the buffer written at place k is not written after place k, and a
  buffer written at an earlier place j < k is not written from place k on; a buffer the line never writes is not written
  from any place on. Also here: an operation of any number of operands read as an equation between the buffers' contents
  after the whole line, and the written-buffer lists of two lines run one after the other.
-/
import proofs.«127805_j87471303951008_1_alg».proof.Proof.LibHostSsa
import Mathlib.Data.List.Nodup

namespace HostRead

open Idealize.ShloMosaic Idealize.ShloMosaic.StableHlo Idealize.ShloMosaic.TcCoe

/-- In a list without repetition, the entry at place j does not occur from a later place k on. -/
theorem not_mem_drop_of_lt {α : Type*} {ys : List α} (h : ys.Nodup) {j k : Nat} {x : α} (hj : ys[j]? = some x) (hjk : j < k) :
    x ∉ ys.drop k := by
  intro hx
  obtain ⟨i, hi⟩ := List.mem_iff_getElem?.mp hx
  rw [List.getElem?_drop] at hi
  have hlt : k + i < ys.length := by
    by_contra hge
    rw [List.getElem?_eq_none (Nat.le_of_not_lt hge)] at hi
    cases hi
  exact (List.nodup_iff_getElem?_ne_getElem?.mp h) j (k + i) (by omega) hlt (hj.trans hi.symm)

variable {sig : RefSig} {τ : Topo} {Val : EltTy → Type}

/-- Two lines, each writing its listed buffers, run one after the other write the two lists in turn. -/
theorem outs_append {l₁ l₂ : List (HloOp τ sig Val)} {y₁ y₂ : List (Ref sig .tc)} (h₁ : Outs l₁ y₁) (h₂ : Outs l₂ y₂) :
    Outs (l₁ ++ l₂) (y₁ ++ y₂) := by
  induction h₁ with
  | nil => exact h₂
  | cons hw _ ih => exact List.Forall₂.cons hw ih

variable {l : List (HloOp τ sig Val)} {ys : List (Ref sig .tc)}

/-- An operation of any number of operands. -/
theorem nary_at (h : Outs l ys) (V : Valuation τ sig Val) (k : Nat) {n : Nat} (xs : Fin n → Ref sig .tc) (y : Ref sig .tc)
    (f : ((i : Fin n) → (xs i).ty.Contents Val) → y.ty.Contents Val) (hxs hy)
    (hk : l[k]? = some (nary xs y f hxs hy)) (hy' : y ∉ ys.drop (k + 1)) (hx' : ∀ i, xs i ∉ ys.drop k) :
    after l V (Proc.devRef .tc y) = f (fun i => after l V (Proc.devRef .tc (xs i))) := by
  rw [after_at h k _ y hk hy' V, nary_result]
  exact congrArg f (funext fun i => (after_take h k (xs i) (hx' i) V).symm)

end HostRead
-- ==== Proof.LibHostTyped.lean ====
/-
  A line of host operations in which every buffer is written once: the operations of a module-local function.

  Such an operation names its buffers through typed references and moves contents between a buffer's own type and the
  value's type along the equation of the two. Read at the valuation after the whole line, the result buffer holds the
  operation's function of what its operand buffers hold — stated with heterogeneous equality, so that at literal
  references, where the two types coincide by computation, the transports never have to be opened.
-/
import proofs.«127805_j87471303951008_1_alg».proof.Proof.LibHostOnce

namespace HostRead

open Idealize.ShloMosaic Idealize.ShloMosaic.StableHlo Idealize.ShloMosaic.TcCoe

variable {sig : RefSig} {τ : Topo} {Val : EltTy → Type}
variable {l : List (HloOp τ sig Val)} {ys : List (Ref sig .tc)}
variable {Tx Ta Tb Tc Ty : BufTy}

/-- A constant into a typed reference's buffer. -/
theorem tnullary_at (h : Outs l ys) (V : Valuation τ sig Val) (k : Nat) (y : TRef sig Ty) (v : Ty.Contents Val)
    (hk : l[k]? = some (TRef.nullary y v)) (hy' : y.ref ∉ ys.drop (k + 1)) :
    HEq (after l V (Proc.devRef .tc y.ref)) v := by
  rw [after_at h k _ y.ref hk hy' V]
  exact tnullary_heq y v _

/-- A one-operand operation over typed references. -/
theorem tunary_at (h : Outs l ys) (V : Valuation τ sig Val) (k : Nat) (x : TRef sig Tx) (y : TRef sig Ty)
    (f : Tx.Contents Val → Ty.Contents Val)
    (hk : l[k]? = some (TRef.unary x y f)) (hy' : y.ref ∉ ys.drop (k + 1)) (hx' : x.ref ∉ ys.drop k)
    (vx : Tx.Contents Val) (hx : HEq (after l V (Proc.devRef .tc x.ref)) vx) :
    HEq (after l V (Proc.devRef .tc y.ref)) (f vx) := by
  rw [after_at h k _ y.ref hk hy' V]
  exact tunary_heq x y f _ vx (by rw [← after_take h k x.ref hx' V]; exact hx)

/-- A two-operand operation over typed references. -/
theorem tbinary_at (h : Outs l ys) (V : Valuation τ sig Val) (k : Nat) (a : TRef sig Ta) (b : TRef sig Tb) (y : TRef sig Ty)
    (f : Ta.Contents Val → Tb.Contents Val → Ty.Contents Val)
    (hk : l[k]? = some (TRef.binary a b y f)) (hy' : y.ref ∉ ys.drop (k + 1)) (ha' : a.ref ∉ ys.drop k) (hb' : b.ref ∉ ys.drop k)
    (va : Ta.Contents Val) (vb : Tb.Contents Val)
    (ha : HEq (after l V (Proc.devRef .tc a.ref)) va) (hb : HEq (after l V (Proc.devRef .tc b.ref)) vb) :
    HEq (after l V (Proc.devRef .tc y.ref)) (f va vb) := by
  rw [after_at h k _ y.ref hk hy' V]
  exact tbinary_heq a b y f _ va vb (by rw [← after_take h k a.ref ha' V]; exact ha) (by rw [← after_take h k b.ref hb' V]; exact hb)

/-- A three-operand operation over typed references. -/
theorem tternary_at (h : Outs l ys) (V : Valuation τ sig Val) (k : Nat) (c : TRef sig Tc) (a : TRef sig Ta) (b : TRef sig Tb)
    (y : TRef sig Ty) (f : Tc.Contents Val → Ta.Contents Val → Tb.Contents Val → Ty.Contents Val)
    (hk : l[k]? = some (TRef.ternary c a b y f)) (hy' : y.ref ∉ ys.drop (k + 1))
    (hc' : c.ref ∉ ys.drop k) (ha' : a.ref ∉ ys.drop k) (hb' : b.ref ∉ ys.drop k)
    (vc : Tc.Contents Val) (va : Ta.Contents Val) (vb : Tb.Contents Val)
    (hc : HEq (after l V (Proc.devRef .tc c.ref)) vc) (ha : HEq (after l V (Proc.devRef .tc a.ref)) va)
    (hb : HEq (after l V (Proc.devRef .tc b.ref)) vb) :
    HEq (after l V (Proc.devRef .tc y.ref)) (f vc va vb) := by
  rw [after_at h k _ y.ref hk hy' V]
  exact tternary_heq c a b y f _ vc va vb (by rw [← after_take h k c.ref hc' V]; exact hc)
    (by rw [← after_take h k a.ref ha' V]; exact ha) (by rw [← after_take h k b.ref hb' V]; exact hb)

end HostRead
-- ==== Proof.RefValue.lean ====
/-
  The reference program's result, read at one index.

  For token (b, s) and output column k the reference's last operation (a dot product along the hidden axis) is read
  back, one operation at a time, to the arguments: each stage below is an equation between the value one operation
  writes, at an index built from (b, s) and a column, and the matching piece of the row function of Spec.lean.

    weights      w + (q - w), q = clip(round(w * s), -1, 1) / s, s = 1 / max(tiny, (0 + sum |w|) / count)   (wScale, wQuant, ste)
    row maxima   the fold of max, from -∞, of the magnitudes along the last axis                              (rowMax)
    quantizer 1  x + (q - x), q = clip(round(x * s), -128, 127) / s, s = 127 / max(tiny, rowMax)              (scale, quant, steQuant)
    up, relu2    the sum over the 512 inputs; max(a, 0) squared                                               (up, relu2)
    norm         h * rsqrt(sum h * h / 2048 + eps) * g; the sum's initial value 0 is absorbed: 0 + S = S      (rms, subln, hidden)
    quantizer 2  the same as quantizer 1, on the hidden row                                                   (steQuant)
    down         the sum over the 2048 hidden entries                                                         (down, refRow)

  Every step is an unfolding: the ideal operations are the extended-real ones by definition, a broadcast or a dot
  product reads its operand at an index computed from the literal shapes, and the float literals stay the printed
  patterns. The one law used is 0 + S = S for the normalisation's sum.
-/
import proofs.«127805_j87471303951008_1_alg».proof.Proof.RefRead
import proofs.«127805_j87471303951008_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-! ## The weights: one scale for the whole matrix, then the grid {-1, 0, 1} in straight-through form -/

/-- the up weights' scale: one over the floored mean magnitude, the sum taken from the printed zero -/
theorem wup_scale (WUP : (⟨S2048x512, .f32⟩ : BufTy).Contents (Elt Ideal)) (i0 : S_.Idx) :
    val_main_v18 (F := Ideal) WUP i0 = Cert.Mlp.wScale (ι := S2048x512.Idx) WUP := by
  rw [val_main_v18_apply, val_main_cst_7_apply, val_main_v17_apply, val_main_call3_v0_apply, val_main_cst_6_apply,
    val_main_v16_apply, val_main_v15_apply, val_main_cst_5_apply, val_main_cst_4_apply]
  simp only [val_main_v14_apply, Ideal.hostDivf_def, Ideal.maximumf_def, Ideal.ofBits_def, Ideal.hostAbsf_def, Ideal.absf_def]
  rfl

/-- an up weight read from the reference: w + (q - w), with q the weight on the grid of the matrix's scale -/
theorem wup_apply (WUP : (⟨S2048x512, .f32⟩ : BufTy).Contents (Elt Ideal)) (i : S2048x512.Idx) :
    val_main_v26 (F := Ideal) WUP i = Cert.Mlp.ste (WUP i) (Cert.Mlp.wQuant (ι := S2048x512.Idx) WUP i) := by
  rw [val_main_v26_apply, val_main_v25_apply, val_main_v24_apply, val_main_v22_apply, val_main_call5_v4_apply,
    val_main_call5_v3_apply, val_main_cst_9_apply, val_main_call5_v2_apply, val_main_call5_v1_apply, val_main_call5_v0_apply,
    val_main_cst_8_apply, val_main_v21_apply, val_main_v20_apply, val_main_v19_apply, val_main_v23_apply,
    wup_scale]
  simp only [Ideal.hostDivf_def, Ideal.maximumf_def, Ideal.minimumf_def, Ideal.ofBits_def, Ideal.hostUnary_roundeven_def,
    Ideal.addf_def, Ideal.subf_def, Ideal.mulf_def]
  rfl

/-- the down weights' scale -/
theorem wdn_scale (WDN : (⟨S512x2048, .f32⟩ : BufTy).Contents (Elt Ideal)) (i0 : S_.Idx) :
    val_main_v61 (F := Ideal) WDN i0 = Cert.Mlp.wScale (ι := S512x2048.Idx) WDN := by
  rw [val_main_v61_apply, val_main_cst_21_apply, val_main_v60_apply, val_main_call10_v0_apply, val_main_cst_20_apply,
    val_main_v59_apply, val_main_v58_apply, val_main_cst_19_apply, val_main_cst_18_apply]
  simp only [val_main_v57_apply, Ideal.hostDivf_def, Ideal.maximumf_def, Ideal.ofBits_def, Ideal.hostAbsf_def, Ideal.absf_def]
  rfl

/-- a down weight read from the reference -/
theorem wdn_apply (WDN : (⟨S512x2048, .f32⟩ : BufTy).Contents (Elt Ideal)) (i : S512x2048.Idx) :
    val_main_v69 (F := Ideal) WDN i = Cert.Mlp.ste (WDN i) (Cert.Mlp.wQuant (ι := S512x2048.Idx) WDN i) := by
  rw [val_main_v69_apply, val_main_v68_apply, val_main_v67_apply, val_main_v65_apply, val_main_call12_v4_apply,
    val_main_call12_v3_apply, val_main_cst_23_apply, val_main_call12_v2_apply, val_main_call12_v1_apply, val_main_call12_v0_apply,
    val_main_cst_22_apply, val_main_v64_apply, val_main_v63_apply, val_main_v62_apply, val_main_v66_apply,
    wdn_scale]
  simp only [Ideal.hostDivf_def, Ideal.maximumf_def, Ideal.minimumf_def, Ideal.ofBits_def, Ideal.hostUnary_roundeven_def,
    Ideal.addf_def, Ideal.subf_def, Ideal.mulf_def]
  rfl

/-! ## The row maxima: a fold of max along the last axis, from the printed -∞ -/

/-- the index of the source over the reduced index (b, s) with coordinate k put back on the last axis is (b, s, k) -/
theorem lift_ix3 {n0 n1 n2 : Nat} (h : (⟨3, ![n0, n1, n2]⟩ : Shape).Reduces [2] (⟨2, ![n0, n1]⟩ : Shape)) (b : Fin n0) (s : Fin n1)
    (k : Fin ((⟨3, ![n0, n1, n2]⟩ : Shape).size 2)) : h.lift (ix2 b s) k = ix3 b s (⟨k.val, k.isLt⟩ : Fin n2) := by
  funext c; apply Fin.ext
  fin_cases c <;> rfl

/-- the host's reduce with a maximum body along the last of three axes, at (b, s): the fold of max over row (b, s) -/
theorem hostReduce_max_row {n0 n1 n2 : Nat} (x : FVec Ideal ⟨3, ![n0, n1, n2]⟩ .f32) (init : FVec Ideal ⟨0, ![]⟩ .f32)
    (h' : (⟨3, ![n0, n1, n2]⟩ : Shape).ReducesTo [2] (⟨2, ![n0, n1]⟩ : Shape))
    (h : (⟨3, ![n0, n1, n2]⟩ : Shape).Reduces [2] (⟨2, ![n0, n1]⟩ : Shape)) (hu : 0 < (⟨0, ![]⟩ : Shape).numel)
    (b : Fin n0) (s : Fin n1) :
    Host.reduce FloatOps.maximumf x init h' hu (ix2 b s)
      = (Finset.univ : Finset (Fin n2)).fold max (init (Shape.Idx.first hu)) (fun i => x (ix3 b s i)) := by
  rw [Host.reduce_eq_fold_single FloatOps.maximumf x init h' h hu]
  have hf : (x ∘ h.lift (ix2 b s)) = fun i : Fin n2 => x (ix3 b s i) := funext fun k => congrArg x (lift_ix3 h b s k)
  exact congrArg (fun f => Finset.fold max (init (Shape.Idx.first hu)) f (Finset.univ : Finset (Fin n2))) hf

/-- the largest magnitude of row (b, s) of x -/
theorem rowmax_x (X : (⟨S8x8192x512, .f32⟩ : BufTy).Contents (Elt Ideal)) (b : Fin 8) (s : Fin 8192) :
    val_main_v1 (F := Ideal) X (ix2 b s) = Cert.Mlp.rowMax (fun i : Fin 512 => X (ix3 b s i)) := by
  unfold val_main_v1
  rw [hostReduce_max_row (val_main_v0 (F := Ideal) X) (val_main_cst (F := Ideal)) reducesTo_S8x8192x512_S8x8192_d2 (by decide) h_S_ b s]
  simp only [val_main_v0_apply, val_main_cst_apply, Ideal.ofBits_def, Ideal.hostAbsf_def, Ideal.absf_def]
  rfl

/-! ## The first row quantizer, in straight-through form -/

/-- the scale of row (b, s) of x: 127 over its floored largest magnitude -/
theorem scale_x (X : (⟨S8x8192x512, .f32⟩ : BufTy).Contents (Elt Ideal)) (b : Fin 8) (s : Fin 8192) (z : Fin 1) :
    val_main_v5 (F := Ideal) X (ix3 b s z) = Cert.Mlp.scale (fun i : Fin 512 => X (ix3 b s i)) := by
  rw [val_main_v5_apply, val_main_v4_apply, val_main_cst_1_apply, val_main_v3_apply, val_main_call0_v1_apply,
    val_main_call0_v0_apply, val_main_cst_0_apply, val_main_v2_apply]
  have e : idx_main_v2 (ix3 b s z) = ix2 b s :=
    funext fun a => Fin.ext (by match a with | ⟨0, _⟩ => rfl | ⟨1, _⟩ => rfl)
  rw [e, rowmax_x]
  simp only [Ideal.hostDivf_def, Ideal.maximumf_def, Ideal.ofBits_def]
  rfl

/-- entry i of row (b, s) after the first quantizer: x + (q - x), q the entry on the 8-bit grid of the row's scale -/
theorem quant_x (X : (⟨S8x8192x512, .f32⟩ : BufTy).Contents (Elt Ideal)) (b : Fin 8) (s : Fin 8192) (i : Fin 512) :
    val_main_v13 (F := Ideal) X (ix3 b s i) = Cert.Mlp.steQuant (fun i : Fin 512 => X (ix3 b s i)) i := by
  rw [val_main_v13_apply, val_main_v12_apply, val_main_v11_apply, val_main_v9_apply, val_main_call2_v4_apply,
    val_main_call2_v3_apply, val_main_cst_3_apply, val_main_call2_v2_apply, val_main_call2_v1_apply, val_main_call2_v0_apply,
    val_main_cst_2_apply, val_main_v8_apply, val_main_v7_apply, val_main_v6_apply, val_main_v10_apply]
  have e6 : idx_main_v6 (ix3 b s i) = ix3 b s (0 : Fin 1) :=
    funext fun a => Fin.ext (by match a with | ⟨0, _⟩ => rfl | ⟨1, _⟩ => rfl | ⟨2, _⟩ => rfl)
  have e10 : idx_main_v10 (ix3 b s i) = ix3 b s (0 : Fin 1) :=
    funext fun a => Fin.ext (by match a with | ⟨0, _⟩ => rfl | ⟨1, _⟩ => rfl | ⟨2, _⟩ => rfl)
  rw [e6, e10, scale_x]
  simp only [Ideal.hostDivf_def, Ideal.maximumf_def, Ideal.minimumf_def, Ideal.ofBits_def, Ideal.hostUnary_roundeven_def,
    Ideal.addf_def, Ideal.subf_def, Ideal.mulf_def]
  rfl

/-! ## The up projection, the activation and the normalisation -/

/-- entry j of the up projection of row (b, s): the quantized row against row j of the quantized up weights -/
theorem up_x (X : (⟨S8x8192x512, .f32⟩ : BufTy).Contents (Elt Ideal)) (WUP : (⟨S2048x512, .f32⟩ : BufTy).Contents (Elt Ideal))
    (b : Fin 8) (s : Fin 8192) (j : Fin 2048) :
    val_main_v27 (F := Ideal) X WUP (ix3 b s j)
      = Cert.Mlp.up (Cert.Mlp.steQuant (fun i : Fin 512 => X (ix3 b s i)))
          (fun (j : Fin 2048) (i : Fin 512) => Cert.Mlp.ste (WUP (ix2 j i)) (Cert.Mlp.wQuant (ι := S2048x512.Idx) WUP (ix2 j i))) j := by
  rw [val_main_v27_apply]
  unfold Cert.Mlp.up
  refine Finset.sum_congr rfl fun k _ => ?_
  have el : lidx_main_v27 (ix3 b s j) k = ix3 b s k :=
    funext fun a => Fin.ext (by match a with | ⟨0, _⟩ => rfl | ⟨1, _⟩ => rfl | ⟨2, _⟩ => rfl)
  have er : ridx_main_v27 (ix3 b s j) k = ix2 j k :=
    funext fun a => Fin.ext (by match a with | ⟨0, _⟩ => rfl | ⟨1, _⟩ => rfl)
  rw [el, er, quant_x, wup_apply]

/-- relu then a square, at entry j of row (b, s) -/
theorem relu2_x (X : (⟨S8x8192x512, .f32⟩ : BufTy).Contents (Elt Ideal)) (WUP : (⟨S2048x512, .f32⟩ : BufTy).Contents (Elt Ideal))
    (b : Fin 8) (s : Fin 8192) (j : Fin 2048) :
    val_main_v29 (F := Ideal) X WUP (ix3 b s j)
      = Cert.Mlp.relu2 (Cert.Mlp.up (Cert.Mlp.steQuant (fun i : Fin 512 => X (ix3 b s i)))
          (fun (j : Fin 2048) (i : Fin 512) => Cert.Mlp.ste (WUP (ix2 j i)) (Cert.Mlp.wQuant (ι := S2048x512.Idx) WUP (ix2 j i))) j) := by
  rw [val_main_v29_apply, val_main_v28_apply, val_main_call6_v0_apply, val_main_call6_cst_apply, up_x]
  simp only [Ideal.maximumf_def, Ideal.mulf_def, Ideal.ofBits_def]
  rfl

/-- one over the root of the mean square of the activated row (b, s); the sum's printed initial value is zero -/
theorem rms_x (X : (⟨S8x8192x512, .f32⟩ : BufTy).Contents (Elt Ideal)) (WUP : (⟨S2048x512, .f32⟩ : BufTy).Contents (Elt Ideal))
    (b : Fin 8) (s : Fin 8192) (z : Fin 1) :
    val_main_v37 (F := Ideal) X WUP (ix3 b s z)
      = Cert.Mlp.rms (fun j : Fin 2048 => Cert.Mlp.relu2 (Cert.Mlp.up (Cert.Mlp.steQuant (fun i : Fin 512 => X (ix3 b s i)))
          (fun (j : Fin 2048) (i : Fin 512) => Cert.Mlp.ste (WUP (ix2 j i)) (Cert.Mlp.wQuant (ι := S2048x512.Idx) WUP (ix2 j i))) j)) := by
  rw [val_main_v37_apply, val_main_v36_apply, val_main_v35_apply, val_main_cst_12_apply, val_main_v34_apply,
    val_main_v33_apply, val_main_cst_11_apply, val_main_v32_apply, val_main_v31_apply, val_main_cst_10_apply]
  have e : ∀ k : Fin 2048, idx_main_v31 (idx_main_v32 (ix3 b s z)) k = ix3 b s k := fun k =>
    funext fun a => Fin.ext (by match a with | ⟨0, _⟩ => rfl | ⟨1, _⟩ => rfl | ⟨2, _⟩ => rfl)
  simp only [e, val_main_v30_apply, relu2_x]
  simp only [Ideal.hostDivf_def, Ideal.addf_def, Ideal.mulf_def, Ideal.ofBits_def, Ideal.hostUnary_rsqrt_def,
    Ideal.ofBits_zero_f32, zero_add]
  rfl

/-- entry j of the hidden row of token (b, s) -/
theorem hidden_x (X : (⟨S8x8192x512, .f32⟩ : BufTy).Contents (Elt Ideal)) (WUP : (⟨S2048x512, .f32⟩ : BufTy).Contents (Elt Ideal))
    (G : (⟨S2048, .f32⟩ : BufTy).Contents (Elt Ideal)) (b : Fin 8) (s : Fin 8192) (j : Fin 2048) :
    val_main_v42 (F := Ideal) X WUP G (ix3 b s j)
      = Cert.Mlp.hidden (Cert.Mlp.steQuant (fun i : Fin 512 => X (ix3 b s i)))
          (fun (j : Fin 2048) (i : Fin 512) => Cert.Mlp.ste (WUP (ix2 j i)) (Cert.Mlp.wQuant (ι := S2048x512.Idx) WUP (ix2 j i)))
          (fun j : Fin 2048 => G (ix1 j)) j := by
  rw [val_main_v42_apply, val_main_v41_apply, val_main_v40_apply, val_main_v39_apply, val_main_v38_apply, relu2_x]
  have e38 : idx_main_v38 (ix3 b s j) = ix3 b s (0 : Fin 1) :=
    funext fun a => Fin.ext (by match a with | ⟨0, _⟩ => rfl | ⟨1, _⟩ => rfl | ⟨2, _⟩ => rfl)
  have e40 : idx_main_v40 (idx_main_v41 (ix3 b s j)) = ix1 j :=
    funext fun a => Fin.ext (by match a with | ⟨0, _⟩ => rfl)
  rw [e38, e40, rms_x]
  simp only [Ideal.mulf_def]
  rfl

/-! ## The second row quantizer, in straight-through form -/

/-- the largest magnitude of the hidden row of token (b, s) -/
theorem rowmax_h (X : (⟨S8x8192x512, .f32⟩ : BufTy).Contents (Elt Ideal)) (WUP : (⟨S2048x512, .f32⟩ : BufTy).Contents (Elt Ideal))
    (G : (⟨S2048, .f32⟩ : BufTy).Contents (Elt Ideal)) (b : Fin 8) (s : Fin 8192) :
    val_main_v44 (F := Ideal) X WUP G (ix2 b s)
      = Cert.Mlp.rowMax (Cert.Mlp.hidden (Cert.Mlp.steQuant (fun i : Fin 512 => X (ix3 b s i)))
          (fun (j : Fin 2048) (i : Fin 512) => Cert.Mlp.ste (WUP (ix2 j i)) (Cert.Mlp.wQuant (ι := S2048x512.Idx) WUP (ix2 j i)))
          (fun j : Fin 2048 => G (ix1 j))) := by
  unfold val_main_v44
  rw [hostReduce_max_row (val_main_v43 (F := Ideal) X WUP G) (val_main_cst_13 (F := Ideal)) reducesTo_S8x8192x2048_S8x8192_d2
    (by decide) h_S_ b s]
  simp only [val_main_v43_apply, hidden_x, val_main_cst_13_apply, Ideal.ofBits_def, Ideal.hostAbsf_def, Ideal.absf_def]
  rfl

/-- the scale of the hidden row of token (b, s) -/
theorem scale_h (X : (⟨S8x8192x512, .f32⟩ : BufTy).Contents (Elt Ideal)) (WUP : (⟨S2048x512, .f32⟩ : BufTy).Contents (Elt Ideal))
    (G : (⟨S2048, .f32⟩ : BufTy).Contents (Elt Ideal)) (b : Fin 8) (s : Fin 8192) (z : Fin 1) :
    val_main_v48 (F := Ideal) X WUP G (ix3 b s z)
      = Cert.Mlp.scale (Cert.Mlp.hidden (Cert.Mlp.steQuant (fun i : Fin 512 => X (ix3 b s i)))
          (fun (j : Fin 2048) (i : Fin 512) => Cert.Mlp.ste (WUP (ix2 j i)) (Cert.Mlp.wQuant (ι := S2048x512.Idx) WUP (ix2 j i)))
          (fun j : Fin 2048 => G (ix1 j))) := by
  rw [val_main_v48_apply, val_main_v47_apply, val_main_cst_15_apply, val_main_v46_apply, val_main_call7_v1_apply,
    val_main_call7_v0_apply, val_main_cst_14_apply, val_main_v45_apply]
  have e : idx_main_v45 (ix3 b s z) = ix2 b s :=
    funext fun a => Fin.ext (by match a with | ⟨0, _⟩ => rfl | ⟨1, _⟩ => rfl)
  rw [e, rowmax_h]
  simp only [Ideal.hostDivf_def, Ideal.maximumf_def, Ideal.ofBits_def]
  rfl

/-- entry j of the hidden row after the second quantizer: h + (q - h) -/
theorem quant_h (X : (⟨S8x8192x512, .f32⟩ : BufTy).Contents (Elt Ideal)) (WUP : (⟨S2048x512, .f32⟩ : BufTy).Contents (Elt Ideal))
    (G : (⟨S2048, .f32⟩ : BufTy).Contents (Elt Ideal)) (b : Fin 8) (s : Fin 8192) (j : Fin 2048) :
    val_main_v56 (F := Ideal) X WUP G (ix3 b s j)
      = Cert.Mlp.steQuant (Cert.Mlp.hidden (Cert.Mlp.steQuant (fun i : Fin 512 => X (ix3 b s i)))
          (fun (j : Fin 2048) (i : Fin 512) => Cert.Mlp.ste (WUP (ix2 j i)) (Cert.Mlp.wQuant (ι := S2048x512.Idx) WUP (ix2 j i)))
          (fun j : Fin 2048 => G (ix1 j))) j := by
  rw [val_main_v56_apply, val_main_v55_apply, val_main_v54_apply, val_main_v52_apply, val_main_call9_v4_apply,
    val_main_call9_v3_apply, val_main_cst_17_apply, val_main_call9_v2_apply, val_main_call9_v1_apply, val_main_call9_v0_apply,
    val_main_cst_16_apply, val_main_v51_apply, val_main_v50_apply, val_main_v49_apply, val_main_v53_apply, hidden_x]
  have e49 : idx_main_v49 (ix3 b s j) = ix3 b s (0 : Fin 1) :=
    funext fun a => Fin.ext (by match a with | ⟨0, _⟩ => rfl | ⟨1, _⟩ => rfl | ⟨2, _⟩ => rfl)
  have e53 : idx_main_v53 (ix3 b s j) = ix3 b s (0 : Fin 1) :=
    funext fun a => Fin.ext (by match a with | ⟨0, _⟩ => rfl | ⟨1, _⟩ => rfl | ⟨2, _⟩ => rfl)
  rw [e49, e53, scale_h]
  simp only [Ideal.hostDivf_def, Ideal.maximumf_def, Ideal.minimumf_def, Ideal.ofBits_def, Ideal.hostUnary_roundeven_def,
    Ideal.addf_def, Ideal.subf_def, Ideal.mulf_def]
  rfl

/-! ## The down projection: the reference's result -/

/-- the reference's result at token (b, s), column k: the straight-through row function of row (b, s) of x, over the
    straight-through forms of the two quantized weight matrices -/
theorem ref_apply (X : (⟨S8x8192x512, .f32⟩ : BufTy).Contents (Elt Ideal)) (WUP : (⟨S2048x512, .f32⟩ : BufTy).Contents (Elt Ideal))
    (WDN : (⟨S512x2048, .f32⟩ : BufTy).Contents (Elt Ideal)) (G : (⟨S2048, .f32⟩ : BufTy).Contents (Elt Ideal))
    (b : Fin 8) (s : Fin 8192) (k : Fin 512) :
    val_main_v70 (F := Ideal) X WUP WDN G (ix3 b s k)
      = Cert.Mlp.refRow (fun i : Fin 512 => X (ix3 b s i))
          (fun (j : Fin 2048) (i : Fin 512) => Cert.Mlp.ste (WUP (ix2 j i)) (Cert.Mlp.wQuant (ι := S2048x512.Idx) WUP (ix2 j i)))
          (fun (k' : Fin 512) (j : Fin 2048) => Cert.Mlp.ste (WDN (ix2 k' j)) (Cert.Mlp.wQuant (ι := S512x2048.Idx) WDN (ix2 k' j)))
          (fun j : Fin 2048 => G (ix1 j)) k := by
  rw [val_main_v70_apply]
  unfold Cert.Mlp.refRow Cert.Mlp.down
  refine Finset.sum_congr rfl fun j _ => ?_
  have el : lidx_main_v70 (ix3 b s k) j = ix3 b s j :=
    funext fun a => Fin.ext (by match a with | ⟨0, _⟩ => rfl | ⟨1, _⟩ => rfl | ⟨2, _⟩ => rfl)
  have er : ridx_main_v70 (ix3 b s k) j = ix2 k j :=
    funext fun a => Fin.ext (by match a with | ⟨0, _⟩ => rfl | ⟨1, _⟩ => rfl)
  rw [el, er, quant_h, wdn_apply]

end Cert.ReferenceIdeal.RefValue

end
-- ==== Proof.Finite.lean ====
/-
  From the printed precondition to real-valued inputs.

  The precondition is the conjunction of four statements of one kind, one per input array `a`:
  every entry satisfies `|a i| < +∞`.  Each is printed as a reduction by `and`, over all axes and
  from the constant 1, of the array of one-bit comparisons `|a i| < +∞`; the four results are joined
  by `and`, and the hypothesis says the outcome is 1.

  A conjunction of one-bit words is 1 only if both words are; a reduction by `and` into a single
  result is 1 only if every reduced word is.  So every comparison `|a i| < +∞` holds.  On the
  extended reals `|x| = max x (-x)`, the pattern `0x7F800000` denotes `⊤`, and `max x (-x) < ⊤`
  fails at `x = ⊤` (the maximum is `⊤`) and at `x = ⊥` (where `-x = ⊤`): what is left is a real.
-/
import proofs.«127805_j87471303951008_1_alg».proof.Pre_finite_inputs
import proofs.«127805_j87471303951008_1_alg».proof.Proof.Spec
import Idealize.ShloMosaic.Lib.ReduceAll
import Idealize.ShloMosaic.Lib.ValueIdx
import Idealize.ShloMosaic.PureOps.Ideal.Laws

namespace Cert.Mlp

open Idealize.ShloMosaic Cert.Pre_finite_inputs

namespace Finite

/-- the pattern `0x7F800000` (sign 0, exponent all ones, fraction 0) denotes `+∞` -/
theorem ofBits_inf : Ideal.ofBits .f32 0x7F800000#32 = (⊤ : EReal) := by
  simp [Ideal.ofBits, Ideal.ieee]

/-- an extended real whose magnitude `max x (-x)` compares below `+∞` is a real number:
    at `⊤` the magnitude is `⊤`, at `⊥` it is `-⊥ = ⊤`, and `⊤ < ⊤` is false -/
theorem isReal_of_abs_lt_inf (x : EReal)
    (h : Ideal.cmp .olt (max x (-x)) (Ideal.ofBits .f32 0x7F800000#32) = 1#1) : IsReal x := by
  rw [ofBits_inf] at h
  induction x using EReal.rec with
  | bot => exact absurd h (by simp [Ideal.cmp])
  | coe r => exact ⟨r, rfl⟩
  | top => exact absurd h (by simp [Ideal.cmp])

end Finite

/-- where the printed predicate `finite_inputs` is all ones, every entry of the four arrays is a real number -/
theorem real_of_pre [Cert.Pre_finite_inputs.Facts]
    (a0 : FVec Ideal Cert.Pre_finite_inputs.S8x8192x512 .f32) (a1 : FVec Ideal Cert.Pre_finite_inputs.S2048x512 .f32)
    (a2 : FVec Ideal Cert.Pre_finite_inputs.S512x2048 .f32) (a3 : FVec Ideal Cert.Pre_finite_inputs.S2048 .f32)
    (h : Cert.Pre_finite_inputs.fn (F := Ideal) a0 a1 a2 a3 = fun _ => 1#1) :
    (∀ i, IsReal (a0 i)) ∧ (∀ i, IsReal (a1 i)) ∧ (∀ i, IsReal (a2 i)) ∧ (∀ i, IsReal (a3 i)) := by
  -- the scalar shape has exactly one index
  haveI : Subsingleton S_.Idx := ⟨fun a b => funext fun d => d.elim0⟩
  -- the predicate's value at that index, with its four reductions and three conjunctions in view
  have h0 := congrFun h ValueIdx.ix0
  dsimp only [fn, fn_part1] at h0
  -- `c ∧ d = 1` iff `c = 1` and `d = 1`, three times: each of the four reductions is 1
  obtain ⟨h012, e3⟩ := IntOp.andi_eq_one.1 (show IntOp.andi _ _ = 1#1 from h0)
  obtain ⟨h01, e2⟩ := IntOp.andi_eq_one.1 (show IntOp.andi _ _ = 1#1 from h012)
  obtain ⟨e0, e1⟩ := IntOp.andi_eq_one.1 (show IntOp.andi _ _ = 1#1 from h01)
  -- a reduction by `and` over all axes is 1 only if every entry is: entrywise `|a i| < +∞`, hence real
  exact ⟨fun i => Finite.isReal_of_abs_lt_inf (a0 i) (Host.reduce_andi_all _ _ _ _ _ e0 i),
    fun i => Finite.isReal_of_abs_lt_inf (a1 i) (Host.reduce_andi_all _ _ _ _ _ e1 i),
    fun i => Finite.isReal_of_abs_lt_inf (a2 i) (Host.reduce_andi_all _ _ _ _ _ e2 i),
    fun i => Finite.isReal_of_abs_lt_inf (a3 i) (Host.reduce_andi_all _ _ _ _ _ e3 i)⟩

end Cert.Mlp
-- ==== Proof.lean ====
/-
  The certificate.  Both idealized programs end with one array, `Cert.Mlp.result` of the four arguments:

  * the kernel: each grid point writes the block of rows it staged, every row through the quantized block
    (`Cert.Mlp.mlpRow`) over the quantized, transposed weights the host prepared; the blocks cover the array; the line
    after the region recasts rows to tokens (KernelHost, Payload, KernelBlocks, KernelRun);
  * the reference: the same row function with every quantizer in straight-through form `v + (q - v)`, read off its run one
    operation at a time (RefRun, RefRead, RefValue); on real numbers `v + (q - v) = q`, and under the precondition every
    input entry is real (Finite), so every value that meets a straight-through form is real (Algebra, Result).

  The three frames are the generated frame certificates of the two kernel programs and the reference's run with the result
  dropped; the idealization rewrote nothing, so `preserves` is `True`.
-/
import proofs.«127805_j87471303951008_1_alg».proof.Defs
import proofs.«127805_j87471303951008_1_alg».proof.Proof.Gen.Kernel
import proofs.«127805_j87471303951008_1_alg».proof.Proof.Gen.Kernel.Skeleton
import proofs.«127805_j87471303951008_1_alg».proof.Proof.Gen.Kernel.Launch
import proofs.«127805_j87471303951008_1_alg».proof.Proof.Gen.Kernel.Points
import proofs.«127805_j87471303951008_1_alg».proof.Proof.Gen.Kernel.Frame
import proofs.«127805_j87471303951008_1_alg».proof.Proof.Gen.KernelIdeal
import proofs.«127805_j87471303951008_1_alg».proof.Proof.Gen.KernelIdeal.Skeleton
import proofs.«127805_j87471303951008_1_alg».proof.Proof.Gen.KernelIdeal.Launch
import proofs.«127805_j87471303951008_1_alg».proof.Proof.Gen.KernelIdeal.Points
import proofs.«127805_j87471303951008_1_alg».proof.Proof.Gen.KernelIdeal.Frame
import proofs.«127805_j87471303951008_1_alg».proof.Proof.Gen.ReferenceIdeal
import proofs.«127805_j87471303951008_1_alg».proof.Proof.Gen.Pre_finite_inputs
import proofs.«127805_j87471303951008_1_alg».proof.Proof.KernelRun
import proofs.«127805_j87471303951008_1_alg».proof.Proof.RefRun
import proofs.«127805_j87471303951008_1_alg».proof.Proof.RefValue
import proofs.«127805_j87471303951008_1_alg».proof.Proof.Finite
import proofs.«127805_j87471303951008_1_alg».proof.Proof.Result
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- the reference's frame: its run, the result dropped -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at `Cert.Mlp.result` of arguments that agree: the kernel's by its run read block by block, the
    reference's by its stages read at an index, the straight-through forms cancelling on the reals the precondition
    gives. -/
theorem algebraic : Cert.algebraic_KernelIdeal_ReferenceIdeal := by
  intro m ρ m' ρ' hpre hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3⟩ := hagree c
  rw [e0, e1, e2, e3]
  obtain ⟨h0, h1, h2, h3⟩ := Cert.Mlp.real_of_pre _ _ _ _ (hpre c)
  funext i
  obtain ⟨b, s, k, rfl⟩ : ∃ (b : Fin 8) (s : Fin 8192) (k : Fin 512), i = ix3 b s k := ⟨i 0, i 1, i 2, eq_ix3 i⟩
  rw [Cert.ReferenceIdeal.RefValue.ref_apply]
  exact Cert.Mlp.refRow_result _ _ _ _ h0 h1 h2 h3 b s k

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
